-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x128x3 : S_.BroadcastsInDim S16x128x128x3 (![] : Fin 0 → Fin S16x128x128x3.rank)
  reducesTo_S16x128x128x3_S_d0_1_2_3 : S16x128x128x3.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x128x64 .f32) (main_arg1 : FVec F S16x128x128x3 .f32) (main_arg2 : FVec F S128x128 .f32) (main_arg3 : FVec F S128 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x128x3 .f32 := Host.absf main_arg1
  let main_cst_0 : FVec F S_ .f32 := constant S_ .f32 0x7F800000#32
  let main_v5 : FVec F S16x128x128x3 .f32 := broadcastInDim S16x128x128x3 ![] bcast_S_S16x128x128x3 main_cst_0
  let main_v6 : IVec S16x128x128x3 1 := cmpf .olt main_v4 main_v5
  let main_c_1 : IVec S_ 1 := constantI S_ 1 1#1
  let main_v7 : IVec S_ 1 := (fun x v => Host.reduce IntOp.andi x v reducesTo_S16x128x128x3_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S1x128 : Shape := ⟨2, ![1, 128]⟩
abbrev S16x128x128x1 : Shape := ⟨4, ![16, 128, 128, 1]⟩
abbrev S16x128x128 : Shape := ⟨3, ![16, 128, 128]⟩
abbrev S16x128x128x384 : Shape := ⟨4, ![16, 128, 128, 384]⟩
abbrev S1x32x64 : Shape := ⟨3, ![1, 32, 64]⟩
abbrev S1x128x64 : Shape := ⟨3, ![1, 128, 64]⟩
abbrev S1x32x128 : Shape := ⟨3, ![1, 32, 128]⟩
abbrev S1x32x128x384 : Shape := ⟨4, ![1, 32, 128, 384]⟩
abbrev S32x64 : Shape := ⟨2, ![32, 64]⟩
abbrev S128x64 : Shape := ⟨2, ![128, 64]⟩
abbrev S64x128 : Shape := ⟨2, ![64, 128]⟩
abbrev S32x128 : Shape := ⟨2, ![32, 128]⟩
abbrev S32x1x128 : Shape := ⟨3, ![32, 1, 128]⟩
abbrev S1x128x128 : Shape := ⟨3, ![1, 128, 128]⟩
abbrev S32x128x128 : Shape := ⟨3, ![32, 128, 128]⟩
abbrev S1x1x128 : Shape := ⟨3, ![1, 1, 128]⟩
abbrev S32x128x1 : Shape := ⟨3, ![32, 128, 1]⟩
abbrev S1x32x128x128 : Shape := ⟨4, ![1, 32, 128, 128]⟩
abbrev S16x128x128x3x128 : Shape := ⟨5, ![16, 128, 128, 3, 128]⟩

abbrev nBuf : Space → Nat
  | .hbm => 13
  | .vmem => 14
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S16x128x128x1, .f32⟩
  | .hbm, ⟨6, _⟩ => ⟨S16x128x128, .f32⟩
  | .hbm, ⟨7, _⟩ => ⟨S16x128x128x1, .f32⟩
  | .hbm, ⟨8, _⟩ => ⟨S16x128x128, .f32⟩
  | .hbm, ⟨9, _⟩ => ⟨S16x128x128x1, .f32⟩
  | .hbm, ⟨10, _⟩ => ⟨S16x128x128, .f32⟩
  | .hbm, ⟨11, _⟩ => ⟨S16x128x128x384, .f32⟩
  | .hbm, ⟨12, _⟩ => ⟨S16x128x128x3x128, .f32⟩
  | .local _ .vmem, ⟨0, _⟩ => ⟨S1x32x64, .f32⟩
  | .local _ .vmem, ⟨1, _⟩ => ⟨S1x32x64, .f32⟩
  | .local _ .vmem, ⟨2, _⟩ => ⟨S1x128x64, .f32⟩
  | .local _ .vmem, ⟨3, _⟩ => ⟨S1x128x64, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S128x128, .f32⟩
  | .local _ .vmem, ⟨11, _⟩ => ⟨S1x128, .f32⟩
  | .local _ .vmem, ⟨12, _⟩ => ⟨S1x32x128x384, .f32⟩
  | .local _ .vmem, ⟨13, _⟩ => ⟨S1x32x128x384, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  slices_S16x128x128x3_S16x128x128x1_0_0_0_0 : S16x128x128x3.Slices ![0, 0, 0, 0] S16x128x128x1
  shapeCasts_S16x128x128x1_S16x128x128 : S16x128x128x1.ShapeCasts S16x128x128
  slices_S16x128x128x3_S16x128x128x1_0_0_0_1 : S16x128x128x3.Slices ![0, 0, 0, 1] S16x128x128x1
  slices_S16x128x128x3_S16x128x128x1_0_0_0_2 : S16x128x128x3.Slices ![0, 0, 0, 2] S16x128x128x1
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S128x128_S128x128_0_0 : ∀ a, (![0, 0] : Fin 2 → Nat) a + S128x128.size a ≤ S128x128.size a
  h_S128x128 : 0 < S128x128.numel
  slices_S128x128_o0_0_S64x128 : S128x128.Slices ![0, 0] S64x128
  slices_S128x128_o64_0_S64x128 : S128x128.Slices ![64, 0] S64x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S128_S1x1x128 : S128.ShapeCasts S1x1x128
  broadcasts_S1x1x128_S32x128x128 : S1x1x128.Broadcasts S32x128x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S32x128x1 : S32x128.ShapeCasts S32x128x1
  broadcasts_S32x128x1_S32x128x128 : S32x128x1.Broadcasts S32x128x128
  inb_S1x32x128x384_S1x32x128x128_0_0_0_0 : ∀ a, (![0, 0, 0, 0] : Fin 4 → Nat) a + S1x32x128x128.size a ≤ S1x32x128x384.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  inb_S1x32x128x384_S1x32x128x128_0_0_0_128 : ∀ a, (![0, 0, 0, 128] : Fin 4 → Nat) a + S1x32x128x128.size a ≤ S1x32x128x384.size a
  inb_S1x32x128x384_S1x32x128x128_0_0_0_256 : ∀ a, (![0, 0, 0, 256] : Fin 4 → Nat) a + S1x32x128x128.size a ≤ S1x32x128x384.size a
  shapeCasts_S16x128x128x384_S16x128x128x3x128 : S16x128x128x384.ShapeCasts S16x128x128x3x128
  dot_S32x64_S64x128_S32x128_1_0_0_1_n_n_wf : DotDims.WF S32x64 S64x128 S32x128 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64.size a ≤ S16x128x64.size a
  hwx0_0 : ∀ i : grid0.Coords, EltTy.bits .f32 = 32 ∨ (Rect.block (s := S16x128x64) S1x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S16x128x64.size a
  hwx0_1 : ∀ i : grid0.Coords, EltTy.bits .f32 = 32 ∨ (Rect.block (s := S16x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S16x128x128.size a
  hwx0_2 : ∀ i : grid0.Coords, EltTy.bits .f32 = 32 ∨ (Rect.block (s := S16x128x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S16x128x128.size a
  hwx0_3 : ∀ i : grid0.Coords, EltTy.bits .f32 = 32 ∨ (Rect.block (s := S16x128x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S16x128x128.size a
  hwx0_4 : ∀ i : grid0.Coords, EltTy.bits .f32 = 32 ∨ (Rect.block (s := S16x128x128) S1x32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x128x384.size a ≤ S16x128x128x384.size a
  hwx0_7 : ∀ i : grid0.Coords, EltTy.bits .f32 = 32 ∨ (Rect.block (s := S16x128x128x384) S1x32x128x384.size (cc0_transform_7 i) (hinb0_7 i)).WholeWords (EltTy.packing .f32)

variable [Facts₀]

def dot_S32x64_S64x128_S32x128_1_0_0_1_n_n : DotDims S32x64 S64x128 S32x128 where
  lhsContracting := [1]
  rhsContracting := [0]
  lhsNonContracting := [0]
  rhsNonContracting := [1]
  lhsBatch := []
  rhsBatch := []
  wf := dot_S32x64_S64x128_S32x128_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S1x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x32x128x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S64x128 : Shape := ⟨2, ![64, 128]⟩
abbrev S16x128x128 : Shape := ⟨3, ![16, 128, 128]⟩
abbrev S16x128x1x128 : Shape := ⟨4, ![16, 128, 1, 128]⟩
abbrev S16x1x128x128 : Shape := ⟨4, ![16, 1, 128, 128]⟩
abbrev S16x128x128x128 : Shape := ⟨4, ![16, 128, 128, 128]⟩
abbrev S1x1x1x128 : Shape := ⟨4, ![1, 1, 1, 128]⟩
abbrev S16x128x128x1x128 : Shape := ⟨5, ![16, 128, 128, 1, 128]⟩
abbrev S16x128x128x3x1 : Shape := ⟨5, ![16, 128, 128, 3, 1]⟩
abbrev S16x128x128x3x128 : Shape := ⟨5, ![16, 128, 128, 3, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S16x128x128, .f32⟩
  | .hbm, ⟨6, _⟩ => ⟨S64x128, .f32⟩
  | .hbm, ⟨7, _⟩ => ⟨S16x128x128, .f32⟩
  | .hbm, ⟨8, _⟩ => ⟨S16x128x1x128, .f32⟩
  | .hbm, ⟨9, _⟩ => ⟨S16x1x128x128, .f32⟩
  | .hbm, ⟨10, _⟩ => ⟨S16x128x128x128, .f32⟩
  | .hbm, ⟨11, _⟩ => ⟨S16x128x128x128, .f32⟩
  | .hbm, ⟨12, _⟩ => ⟨S16x128x128x128, .f32⟩
  | .hbm, ⟨13, _⟩ => ⟨S1x1x1x128, .f32⟩
  | .hbm, ⟨14, _⟩ => ⟨S16x128x128x128, .f32⟩
  | .hbm, ⟨15, _⟩ => ⟨S16x128x128x128, .f32⟩
  | .hbm, ⟨16, _⟩ => ⟨S16x128x128x1x128, .f32⟩
  | .hbm, ⟨17, _⟩ => ⟨S16x128x128x3x1, .f32⟩
  | .hbm, ⟨18, _⟩ => ⟨S16x128x128x3x128, .f32⟩
  | .hbm, ⟨19, _⟩ => ⟨S16x128x128x3x128, .f32⟩
  | .hbm, ⟨20, _⟩ => ⟨S16x128x128x3x128, .f32⟩
  | .hbm, ⟨21, _⟩ => ⟨S_, .f32⟩
  | .hbm, ⟨22, _⟩ => ⟨S16x128x128x3x128, .f32⟩
  | .hbm, ⟨23, _⟩ => ⟨S16x128x128x3x128, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S128x128_S64x128_0_0 : S128x128.Slices ![0, 0] S64x128
  slices_S128x128_S64x128_64_0 : S128x128.Slices ![64, 0] S64x128
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128x128_S16x128x128x1x128_0_1_2_4 : S16x128x128x128.BroadcastsInDim S16x128x128x1x128 (![0, 1, 2, 4] : Fin 4 → Fin S16x128x128x1x128.rank)
  bcast_S16x128x128x3_S16x128x128x3x1_0_1_2_3 : S16x128x128x3.BroadcastsInDim S16x128x128x3x1 (![0, 1, 2, 3] : Fin 4 → Fin S16x128x128x3x1.rank)
  bcast_S16x128x128x1x128_S16x128x128x3x128_0_1_2_3_4 : S16x128x128x1x128.BroadcastsInDim S16x128x128x3x128 (![0, 1, 2, 3, 4] : Fin 5 → Fin S16x128x128x3x128.rank)
  bcast_S16x128x128x3x1_S16x128x128x3x128_0_1_2_3_4 : S16x128x128x3x1.BroadcastsInDim S16x128x128x3x128 (![0, 1, 2, 3, 4] : Fin 5 → Fin S16x128x128x3x128.rank)
  bcast_S_S16x128x128x3x128 : S_.BroadcastsInDim S16x128x128x3x128 (![] : Fin 0 → Fin S16x128x128x3x128.rank)
  dot_S16x128x64_S64x128_S16x128x128_2_0_01_1_n_n_wf : DotDims.WF S16x128x64 S64x128 S16x128x128 [2] [0] [0, 1] [1] [] []

variable [Facts₀]

def dot_S16x128x64_S64x128_S16x128x128_2_0_01_1_n_n : DotDims S16x128x64 S64x128 S16x128x128 where
  lhsContracting := [2]
  rhsContracting := [0]
  lhsNonContracting := [0, 1]
  rhsNonContracting := [1]
  lhsBatch := []
  rhsBatch := []
  wf := dot_S16x128x64_S64x128_S16x128x128_2_0_01_1_n_n_wf

class Facts : Prop extends Facts₀ where

variable [Facts]
-- ==== Proof.BodyB.lean ====
/-
  One grid point of the kernel, as a triple. The body reads seven staged blocks — a tile of 32 row nodes' features, all
  128 column nodes' features of the same batch element, the three distance tiles, the weight and the bias — and writes
  one output block of shape [1, 32, 128, 384] by three stores, one per distance coordinate, into the lane ranges
  [0,128), [128,256) and [256,384). The three ranges tile the block, so after the body the block is one function of the
  seven inputs: the union of the three stored pieces.
-/
import proofs.«170049_j9388798509584_2_alg».proof.Proof.Gen.Kernel.Launch
import proofs.«170049_j9388798509584_2_alg».proof.Proof.Gen.Kernel.Skeleton
import proofs.«170049_j9388798509584_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three stored rectangles and what the output block holds after the body -/

abbrev r7_0 : Rect S1x32x128x384 := Rect.unit (s := S1x32x128x384) ![0, 0, 0, 0] S1x32x128x128.size inb_S1x32x128x384_S1x32x128x128_0_0_0_0
abbrev r7_1 : Rect S1x32x128x384 := Rect.unit (s := S1x32x128x384) ![0, 0, 0, 128] S1x32x128x128.size inb_S1x32x128x384_S1x32x128x128_0_0_0_128
abbrev r7_2 : Rect S1x32x128x384 := Rect.unit (s := S1x32x128x384) ![0, 0, 0, 256] S1x32x128x128.size inb_S1x32x128x384_S1x32x128x128_0_0_0_256

abbrev w0 : Rect S1x32x64 := Rect.unit (s := S1x32x64) ![0, 0, 0] S1x32x64.size inb_S1x32x64_S1x32x64_0_0_0
abbrev w1 : Rect S1x128x64 := Rect.unit (s := S1x128x64) ![0, 0, 0] S1x128x64.size inb_S1x128x64_S1x128x64_0_0_0
abbrev wd : Rect S1x32x128 := Rect.unit (s := S1x32x128) ![0, 0, 0] S1x32x128.size inb_S1x32x128_S1x32x128_0_0_0
abbrev w5 : Rect S128x128 := Rect.unit (s := S128x128) ![0, 0] S128x128.size inb_S128x128_S128x128_0_0
abbrev w6 : Rect S1x128 := Rect.unit (s := S1x128) ![0, 0] S1x128.size inb_S1x128_S1x128_0_0

/-- The output block after the body, from the seven input blocks: the three stores as pieces, last first. Piece `c`
    is the positive part of (pair term) · (distance coordinate `c`), laid at lanes [128c, 128c + 128). -/
def outBlock (x0 : Vec F S1x32x64 .f32) (x1 : Vec F S1x128x64 .f32) (x2 x3 x4 : Vec F S1x32x128 .f32)
    (x5 : Vec F S128x128 .f32) (x6 : Vec F S1x128 .f32) : Vec F S1x32x128x384 .f32 :=
  View.canon [⟨r7_2, k0_pay3 (k0_pay4 (View.ld x0 w0) (View.ld x1 w1) (View.ld x5 w5) (View.ld x6 w6)) (k0_pay6 (View.ld x4 wd))⟩,
    ⟨r7_1, k0_pay2 (k0_pay4 (View.ld x0 w0) (View.ld x1 w1) (View.ld x5 w5) (View.ld x6 w6)) (k0_pay5 (View.ld x3 wd))⟩,
    ⟨r7_0, k0_pay1 (k0_pay7 (View.ld x0 w0) (View.ld x1 w1) (View.ld x5 w5) (View.ld x6 w6) (View.ld x2 wd))⟩]

/-- The three lane ranges tile the block. -/
theorem outCover (p0 p1 p2 : Vec F S1x32x128x128 .f32) (y : S1x32x128x384.Idx) :
    ∃ pc ∈ ([⟨r7_2, p0⟩, ⟨r7_1, p1⟩, ⟨r7_0, p2⟩] : List (View.Piece (Elt F) S1x32x128x384 .f32)), y ∈ pc.1.set :=
  View.cover_of_tiled [⟨r7_2, p0⟩, ⟨r7_1, p1⟩, ⟨r7_0, p2⟩] S1x32x128x128.size (by rfl) y

/-! ## The body's triple -/

set_option maxHeartbeats 1000000 in
/-- On whole staging buffers, the inputs' at contents `x0 … x6` and the output's at anything, the body runs to the end
    leaving the inputs as they were and the output block at `outBlock` of them. -/
theorem sound_kernel (c : Dev nD) (E : Set ℕ) (i : grid0.Coords)
    (arg2 : Memref sig .tc .vmem S1x32x64 .f32) (harg2 : arg2.IsWhole) (arg3 : Memref sig .tc .vmem S1x128x64 .f32) (harg3 : arg3.IsWhole)
    (arg4 : Memref sig .tc .vmem S1x32x128 .f32) (harg4 : arg4.IsWhole) (arg5 : Memref sig .tc .vmem S1x32x128 .f32) (harg5 : arg5.IsWhole)
    (arg6 : Memref sig .tc .vmem S1x32x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x32x128x384 .f32) (harg9 : arg9.IsWhole)
    (x0 : Vec F S1x32x64 .f32) (x1 : Vec F S1x128x64 .f32) (x2 x3 x4 : Vec F S1x32x128 .f32)
    (x5 : Vec F S128x128 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outBlock x0 x1 x2 x3 x4 x5 x6)) -∗ K ⟨⟩))
      ⊢ wp frame (wpE (defs₀ (F := F)) Variants.none c none) E
          (cc0__sv_kernel i arg2 harg2 arg3 harg3 arg4 harg4 arg5 harg5 arg6 harg6 arg7 harg7 arg8 harg8 arg9 harg9) K := by
  simp only [cc0__sv_kernel_eq_skeleton]; unfold cc0__sv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _ _ _)

end Cert.Kernel.Hand

end
-- ==== Proof.ObligB.lean ====
/-
  The proof data of the pipeline and the body obligation at every grid point.

  The grid has 16 × 4 points; point (b, i) stages rows 32i..32i+31 of batch element b of the features (window 0), all of
  batch element b's features (window 1, the same array as window 0), the matching tiles of the three distance planes
  (windows 2–4), the whole weight and the bias (windows 5, 6), and writes block (b, i) of the result (window 7). The body
  leaves every input block in place and the output block at `outBlock` of the seven input blocks.
-/
import proofs.«170049_j9388798509584_2_alg».proof.Proof.BodyB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The core's buffer contents when the region is entered: after the seven host operations before it (the bias laid as
    a row, the three distance planes sliced out and flattened). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at
    `outBlock` of the input blocks; the invariant the untouched scoped rest; nothing owed. The features array is read by
    two windows, which hold one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunB.lean ====
/-
  The whole program's run: the host operations before the region, the pipelined region over its 64 grid points, and
  the reshape after it.

  The features array is the array of two input windows; its full share is dealt one half to each. The result array is
  written block by block and, after the region, read by the one host operation that follows: a reshape of
  [16,128,128,384] into [16,128,128,3,128]. Every other buffer of the program bypasses the region.
-/
import proofs.«170049_j9388798509584_2_alg».proof.Proof.ObligB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as a chain -/

/-- The pipeline's arrays, window by window: the features array at one half for each of its two windows, every
    other array whole. -/
theorem arrays_chain (c : Dev nD) (A : (w : Fin cfg0.W) → Buf (Elt F) ((cfg0.win w).arr.view.loc (c.tc : Thread nD τ))) :
    ((dats m 0 c).arrays A : sProp 𝕄) = iprop(
      (((c.tc : Thread nD τ).loc main_arg0) ↦{fullShare.left} A 0) ∗ (((c.tc : Thread nD τ).loc main_arg0) ↦{fullShare.right} A 1)
      ∗ (((c.tc : Thread nD τ).loc main_v2) ↦{fullShare} A 2) ∗ (((c.tc : Thread nD τ).loc main_v4) ↦{fullShare} A 3)
      ∗ (((c.tc : Thread nD τ).loc main_v6) ↦{fullShare} A 4) ∗ (((c.tc : Thread nD τ).loc main_arg2) ↦{fullShare} A 5)
      ∗ (((c.tc : Thread nD τ).loc main_v0) ↦{fullShare} A 6) ∗ (((c.tc : Thread nD τ).loc main_v7) ↦{fullShare} A 7)) := by
  unfold Dat.arrays
  rw [show (bigSep Finset.univ fun w : Fin cfg0.W => ((cfg0.win w).arr.view.loc (c.tc : Thread nD τ) ↦[(cfg0.win w).arr.view.set]{(dats m 0 c).share w} A w : sProp 𝕄))
      = bigSep Finset.univ fun w : Fin cfg0.W => ((((c.tc : Thread nD τ).loc (Pipeline.arrRef spec0 w)) ↦{(dats m 0 c).share w} A w : sProp 𝕄))
      from bigSep_congr fun w _ => by rw [(arr_whole0 w).set_eq_univ]]
  rw [bigSep_W0]
  rfl

/-- The distinct buffers behind the windows' arrays, one by one. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗ (((c.tc : Thread nD τ).loc main_v2) ↦{fullShare} Vv main_v2)
      ∗ (((c.tc : Thread nD τ).loc main_v4) ↦{fullShare} Vv main_v4) ∗ (((c.tc : Thread nD τ).loc main_v6) ↦{fullShare} Vv main_v6)
      ∗ (((c.tc : Thread nD τ).loc main_arg2) ↦{fullShare} Vv main_arg2) ∗ (((c.tc : Thread nD τ).loc main_v0) ↦{fullShare} Vv main_v0)
      ∗ (((c.tc : Thread nD τ).loc main_v7) ↦{fullShare} Vv main_v7)) := by
  unfold Pipeline.arrBufs
  exact bigSep_eq_bigSepL_of_eq [main_arg0, main_v2, main_v4, main_v6, main_arg2, main_v0, main_v7] (by decide) (by decide) _

/-- At the region's entry the distinct buffers behind the windows' arrays, each whole, make the pipeline's arrays:
    the features array is split in two halves. -/
theorem hsplit (c : Dev nD) :
    (Pipeline.arrBufs spec0 c (V m c) : sProp 𝕄) ⊢ (dats m 0 c).arrays ((dats m 0 c).arrAt · 0) := by
  rw [arrays_chain, arrBufs_chain]
  iintro ⟨H0, H2, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-! ## The reshape after the region -/

/-- The buffer contents at the region's exit, as far as the reshape after it reads them: the result array at what the
    64 write-backs left, everything else as at the region's entry. -/
def Wexit (c : Dev nD) : Valuation τ sig (Elt F) := by
  classical
  exact Function.update (V0 m c) (Proc.devRef .tc main_v7) ((dats m 0 c).arrAt 7 cfg0.N)

theorem Wexit_v7 (c : Dev nD) : Wexit m c (Proc.devRef .tc main_v7) = (dats m 0 c).arrAt 7 cfg0.N := by
  unfold Wexit; exact Function.update_self _ _ _

theorem Wexit_ne (c : Dev nD) (b : Ref sig .tc) (h : b ≠ main_v7) : Wexit m c (Proc.devRef .tc b) = V m c b := by
  unfold Wexit; exact Function.update_of_ne (StableHlo.devRef_ne_of_ne h) _ _

/-- The buffer contents at the program's end: after the reshape. -/
def Vend (c : Dev nD) (b : Ref sig .tc) : Buf (Elt F) ((c : Thread nD τ).loc b) :=
  StableHlo.after hostOps1 (Wexit m c) (Proc.devRef .tc b)

/-- The reshape writes only its result. -/
theorem Vend_ne (c : Dev nD) (b : Ref sig .tc) (h8 : b ≠ main_v8) (h7 : b ≠ main_v7) : Vend m c b = V m c b := by
  unfold Vend
  simp only [hostOps1, StableHlo.after_cons, StableHlo.after_nil]
  rw [StableHlo.reshape_result_ne _ _ _ _ _ _ _ h8, Wexit_ne m c b h7]

theorem Vend_v7 (c : Dev nD) : Vend m c main_v7 = (dats m 0 c).arrAt 7 cfg0.N := by
  unfold Vend
  simp only [hostOps1, StableHlo.after_cons, StableHlo.after_nil]
  rw [StableHlo.reshape_result_ne _ _ _ _ _ _ _ (by decide : main_v7 ≠ main_v8), Wexit_v7]

/-- The result of the program: the folded result array re-laid with its last axis split in (3, 128). -/
theorem Vend_v8 (c : Dev nD) : Vend m c main_v8
    = shapeCast S16x128x128x3x128 ((dats m 0 c).arrAt 7 cfg0.N : FVec F S16x128x128x384 .f32) shapeCasts_S16x128x128x384_S16x128x128x3x128 := by
  unfold Vend
  simp only [hostOps1, StableHlo.after_cons, StableHlo.after_nil]
  rw [StableHlo.reshape_result', Wexit_v7]
  rfl

/-- The two buffers the reshape touches, held whole. -/
theorem held_pair (c : Dev nD) (W : Valuation τ sig (Elt F)) :
    (StableHlo.held (c.tc : Thread nD τ) {Proc.devRef .tc main_v7, Proc.devRef .tc main_v8} W : sProp 𝕄)
      = iprop((((c.tc : Thread nD τ).loc main_v7) ↦{fullShare} W (Proc.devRef .tc main_v7))
          ∗ (((c.tc : Thread nD τ).loc main_v8) ↦{fullShare} W (Proc.devRef .tc main_v8))) := by
  unfold StableHlo.held
  rw [bigSep_insert (by rw [Finset.mem_singleton]; exact StableHlo.devRef_ne_of_ne (by decide)), bigSep_singleton]
  rfl

/-- The same two buffers after the reshape: the result array as it was, the program's result written. -/
theorem held_exit (c : Dev nD) :
    (StableHlo.held (c.tc : Thread nD τ) {Proc.devRef .tc main_v7, Proc.devRef .tc main_v8} (StableHlo.after hostOps1 (Wexit m c)) : sProp 𝕄)
      = iprop((((c.tc : Thread nD τ).loc main_v7) ↦{fullShare} (dats m 0 c).arrAt 7 cfg0.N)
          ∗ (((c.tc : Thread nD τ).loc main_v8) ↦{fullShare} Vend m c main_v8)) := by
  rw [held_pair, show StableHlo.after hostOps1 (Wexit m c) (Proc.devRef .tc main_v7) = (dats m 0 c).arrAt 7 cfg0.N from Vend_v7 m c]
  rfl

-- a rule stated for any thread is applied at the TensorCore thread
set_option backward.isDefEq.respectTransparency.types false in
/-- From the region's exit the reshape runs, reading the result array and writing the program's result; every other
    buffer is as it was. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  rw [arrays_chain, unscopedRest0_eq, unscopedRest0_eq,
    Vend_ne m c main_arg1 (by decide) (by decide), Vend_ne m c main_arg3 (by decide) (by decide),
    Vend_ne m c main_v1 (by decide) (by decide), Vend_ne m c main_v3 (by decide) (by decide),
    Vend_ne m c main_v5 (by decide) (by decide)]
  iintro ⟨Hk, Hb, ⟨A0, A1, A2, A3, A4, A5, A6, A7⟩, ⟨R1, R3, Rv1, Rv3, Rv5, Rv8⟩⟩
  rw [Pipeline.chain_cons, Pipeline.chain_nil]
  ihave Hh := (Entails.of_eq (held_pair c (Wexit m c)).symm) $$ [A7 Rv8]
  · rw [Wexit_v7, Wexit_ne m c main_v8 (by decide)]
    isplitl [A7]; · iexact A7
    iexact Rv8
  iapply (StableHlo.wp_seq (Variants.lift Variants.none) none Set.univ c {Proc.devRef .tc main_v7, Proc.devRef .tc main_v8} _ hostOps1
    (by intro op hop; simp only [hostOps1, List.mem_cons, List.mem_nil_iff, or_false] at hop; subst hop; exact Finset.Subset.refl _)
    (List.forall_iff_forall_mem.mp hostOps1_fresh) (Wexit m c)) $$ [Hb Hh]
  · isplitl [Hb]; · iexact Hb
    iexact Hh
  iintro ⟨Hb, Hh⟩
  rw [wp_pure]
  imodintro
  iapply Hk
  ihave Hh' := (Entails.of_eq (held_exit m c)) $$ Hh
  icases Hh' with ⟨A7, Rv8⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R3]; · iexact R3
  isplitl [Rv1]; · iexact Rv1
  isplitl [Rv3]; · iexact Rv3
  isplitl [Rv5]; · iexact Rv5
  iexact Rv8

/-! ## The run -/

/-! No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

-- the launch theorem's implicit arguments are found by unifying its conclusion with this one
set_option backward.isDefEq.respectTransparency.types false in
/-- From any memory with zero counters every weakly fair execution of the program terminates; at the end the program's
    result holds the re-laid array the region's write-backs left, and the four arguments are unchanged. -/
theorem run_main : θ_run defs (onTc (τ := τ) (main (F := F))) ⟨m, fun _ => 0, ρ⟩ (fun r => ∀ c : Dev nD,
      r.2.mem ((c.tc : Thread nD τ).loc main_v8) = Vend m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (fun q => (cfgs q).toPCfg (Val := Elt F)) (fun q => (cfgs q).toPCfg_adm) (dats m) ()
    cellOf_inj (0 : Fin 1) winFacts₀0 (Pipeline.PreFacts.none _) emb₁ defs₀ Variants.none m ρ main
    (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m) (fun _ k => k.elim0)
    (fun _ => iprop(emp)) (fun _ => iprop(emp)) (fun c => Pipeline.unscopedRest spec0 c (V m c)) (fun c => Pipeline.unscopedRest spec0 c (Vend m c))
    (fun c => by
      rw [Pipeline.unscopedRestP_none]
      iintro H; isplitr; · iempintro
      iexact H)
    (fun c => by
      show iprop(_ ∗ _ ∗ Pipeline.scopedRest spec0 c) ⊢ Pipeline.scopedRest spec0 c
      iintro ⟨-, -, HR⟩; iexact HR)
    (fun c => by
      show Pipeline.scopedRest spec0 c ⊢ iprop(_ ∗ Pipeline.scopedRest spec0 c)
      iintro HR; isplitr; · iempintro
      iexact HR)
    (htail m)
    (fun c s => ∀ b ∈ Pipeline.restRefs sig spec0, s.mem ((c.tc : Thread nD τ).loc b) = Vend m c b)
    (fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (fun s h c => ⟨(h c).2.2 main_v8 (Pipeline.mem_restRefs_of main_v8 (by decide) (by decide)),
      ((h c).1 0).trans (((dats m 0 c).arrAt_in 0 rfl _).trans ((A_eq m c 0).trans (V_main_arg0 m c))),
      ((h c).2.2 main_arg1 (Pipeline.mem_restRefs_of main_arg1 (by decide) (by decide))).trans
        ((Vend_ne m c main_arg1 (by decide) (by decide)).trans (V_main_arg1 m c)),
      ((h c).1 5).trans (((dats m 0 c).arrAt_in 5 rfl _).trans ((A_eq m c 5).trans (V_main_arg2 m c))),
      ((h c).2.2 main_arg3 (Pipeline.mem_restRefs_of main_arg3 (by decide) (by decide))).trans
        ((Vend_ne m c main_arg3 (by decide) (by decide)).trans (V_main_arg3 m c))⟩)

end Cert.Kernel.Hand

end
-- ==== Proof.BodyI.lean ====
/-
  One grid point of the kernel, as a triple. The body reads seven staged blocks — a tile of 32 row nodes' features, all
  128 column nodes' features of the same batch element, the three distance tiles, the weight and the bias — and writes
  one output block of shape [1, 32, 128, 384] by three stores, one per distance coordinate, into the lane ranges
  [0,128), [128,256) and [256,384). The three ranges tile the block, so after the body the block is one function of the
  seven inputs: the union of the three stored pieces.
-/
import proofs.«170049_j9388798509584_2_alg».proof.Proof.Gen.KernelIdeal.Launch
import proofs.«170049_j9388798509584_2_alg».proof.Proof.Gen.KernelIdeal.Skeleton
import proofs.«170049_j9388798509584_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three stored rectangles and what the output block holds after the body -/

abbrev r7_0 : Rect S1x32x128x384 := Rect.unit (s := S1x32x128x384) ![0, 0, 0, 0] S1x32x128x128.size inb_S1x32x128x384_S1x32x128x128_0_0_0_0
abbrev r7_1 : Rect S1x32x128x384 := Rect.unit (s := S1x32x128x384) ![0, 0, 0, 128] S1x32x128x128.size inb_S1x32x128x384_S1x32x128x128_0_0_0_128
abbrev r7_2 : Rect S1x32x128x384 := Rect.unit (s := S1x32x128x384) ![0, 0, 0, 256] S1x32x128x128.size inb_S1x32x128x384_S1x32x128x128_0_0_0_256

abbrev w0 : Rect S1x32x64 := Rect.unit (s := S1x32x64) ![0, 0, 0] S1x32x64.size inb_S1x32x64_S1x32x64_0_0_0
abbrev w1 : Rect S1x128x64 := Rect.unit (s := S1x128x64) ![0, 0, 0] S1x128x64.size inb_S1x128x64_S1x128x64_0_0_0
abbrev wd : Rect S1x32x128 := Rect.unit (s := S1x32x128) ![0, 0, 0] S1x32x128.size inb_S1x32x128_S1x32x128_0_0_0
abbrev w5 : Rect S128x128 := Rect.unit (s := S128x128) ![0, 0] S128x128.size inb_S128x128_S128x128_0_0
abbrev w6 : Rect S1x128 := Rect.unit (s := S1x128) ![0, 0] S1x128.size inb_S1x128_S1x128_0_0

/-- The output block after the body, from the seven input blocks: the three stores as pieces, last first. Piece `c`
    is the positive part of (pair term) · (distance coordinate `c`), laid at lanes [128c, 128c + 128). -/
def outBlock (x0 : Vec F S1x32x64 .f32) (x1 : Vec F S1x128x64 .f32) (x2 x3 x4 : Vec F S1x32x128 .f32)
    (x5 : Vec F S128x128 .f32) (x6 : Vec F S1x128 .f32) : Vec F S1x32x128x384 .f32 :=
  View.canon [⟨r7_2, k0_pay3 (k0_pay4 (View.ld x0 w0) (View.ld x1 w1) (View.ld x5 w5) (View.ld x6 w6)) (k0_pay6 (View.ld x4 wd))⟩,
    ⟨r7_1, k0_pay2 (k0_pay4 (View.ld x0 w0) (View.ld x1 w1) (View.ld x5 w5) (View.ld x6 w6)) (k0_pay5 (View.ld x3 wd))⟩,
    ⟨r7_0, k0_pay1 (k0_pay7 (View.ld x0 w0) (View.ld x1 w1) (View.ld x5 w5) (View.ld x6 w6) (View.ld x2 wd))⟩]

/-- The three lane ranges tile the block. -/
theorem outCover (p0 p1 p2 : Vec F S1x32x128x128 .f32) (y : S1x32x128x384.Idx) :
    ∃ pc ∈ ([⟨r7_2, p0⟩, ⟨r7_1, p1⟩, ⟨r7_0, p2⟩] : List (View.Piece (Elt F) S1x32x128x384 .f32)), y ∈ pc.1.set :=
  View.cover_of_tiled [⟨r7_2, p0⟩, ⟨r7_1, p1⟩, ⟨r7_0, p2⟩] S1x32x128x128.size (by rfl) y

/-! ## The body's triple -/

set_option maxHeartbeats 1000000 in
/-- On whole staging buffers, the inputs' at contents `x0 … x6` and the output's at anything, the body runs to the end
    leaving the inputs as they were and the output block at `outBlock` of them. -/
theorem sound_kernel (c : Dev nD) (E : Set ℕ) (i : grid0.Coords)
    (arg2 : Memref sig .tc .vmem S1x32x64 .f32) (harg2 : arg2.IsWhole) (arg3 : Memref sig .tc .vmem S1x128x64 .f32) (harg3 : arg3.IsWhole)
    (arg4 : Memref sig .tc .vmem S1x32x128 .f32) (harg4 : arg4.IsWhole) (arg5 : Memref sig .tc .vmem S1x32x128 .f32) (harg5 : arg5.IsWhole)
    (arg6 : Memref sig .tc .vmem S1x32x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x32x128x384 .f32) (harg9 : arg9.IsWhole)
    (x0 : Vec F S1x32x64 .f32) (x1 : Vec F S1x128x64 .f32) (x2 x3 x4 : Vec F S1x32x128 .f32)
    (x5 : Vec F S128x128 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outBlock x0 x1 x2 x3 x4 x5 x6)) -∗ K ⟨⟩))
      ⊢ wp frame (wpE (defs₀ (F := F)) Variants.none c none) E
          (cc0__sv_kernel i arg2 harg2 arg3 harg3 arg4 harg4 arg5 harg5 arg6 harg6 arg7 harg7 arg8 harg8 arg9 harg9) K := by
  simp only [cc0__sv_kernel_eq_skeleton]; unfold cc0__sv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _ _ _)

end Cert.KernelIdeal.Hand

end
-- ==== Proof.ObligI.lean ====
/-
  The proof data of the pipeline and the body obligation at every grid point.

  The grid has 16 × 4 points; point (b, i) stages rows 32i..32i+31 of batch element b of the features (window 0), all of
  batch element b's features (window 1, the same array as window 0), the matching tiles of the three distance planes
  (windows 2–4), the whole weight and the bias (windows 5, 6), and writes block (b, i) of the result (window 7). The body
  leaves every input block in place and the output block at `outBlock` of the seven input blocks.
-/
import proofs.«170049_j9388798509584_2_alg».proof.Proof.BodyI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The core's buffer contents when the region is entered: after the seven host operations before it (the bias laid as
    a row, the three distance planes sliced out and flattened). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at
    `outBlock` of the input blocks; the invariant the untouched scoped rest; nothing owed. The features array is read by
    two windows, which hold one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The whole program's run: the host operations before the region, the pipelined region over its 64 grid points, and
  the reshape after it.

  The features array is the array of two input windows; its full share is dealt one half to each. The result array is
  written block by block and, after the region, read by the one host operation that follows: a reshape of
  [16,128,128,384] into [16,128,128,3,128]. Every other buffer of the program bypasses the region.
-/
import proofs.«170049_j9388798509584_2_alg».proof.Proof.ObligI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as a chain -/

/-- The pipeline's arrays, window by window: the features array at one half for each of its two windows, every
    other array whole. -/
theorem arrays_chain (c : Dev nD) (A : (w : Fin cfg0.W) → Buf (Elt F) ((cfg0.win w).arr.view.loc (c.tc : Thread nD τ))) :
    ((dats m 0 c).arrays A : sProp 𝕄) = iprop(
      (((c.tc : Thread nD τ).loc main_arg0) ↦{fullShare.left} A 0) ∗ (((c.tc : Thread nD τ).loc main_arg0) ↦{fullShare.right} A 1)
      ∗ (((c.tc : Thread nD τ).loc main_v2) ↦{fullShare} A 2) ∗ (((c.tc : Thread nD τ).loc main_v4) ↦{fullShare} A 3)
      ∗ (((c.tc : Thread nD τ).loc main_v6) ↦{fullShare} A 4) ∗ (((c.tc : Thread nD τ).loc main_arg2) ↦{fullShare} A 5)
      ∗ (((c.tc : Thread nD τ).loc main_v0) ↦{fullShare} A 6) ∗ (((c.tc : Thread nD τ).loc main_v7) ↦{fullShare} A 7)) := by
  unfold Dat.arrays
  rw [show (bigSep Finset.univ fun w : Fin cfg0.W => ((cfg0.win w).arr.view.loc (c.tc : Thread nD τ) ↦[(cfg0.win w).arr.view.set]{(dats m 0 c).share w} A w : sProp 𝕄))
      = bigSep Finset.univ fun w : Fin cfg0.W => ((((c.tc : Thread nD τ).loc (Pipeline.arrRef spec0 w)) ↦{(dats m 0 c).share w} A w : sProp 𝕄))
      from bigSep_congr fun w _ => by rw [(arr_whole0 w).set_eq_univ]]
  rw [bigSep_W0]
  rfl

/-- The distinct buffers behind the windows' arrays, one by one. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗ (((c.tc : Thread nD τ).loc main_v2) ↦{fullShare} Vv main_v2)
      ∗ (((c.tc : Thread nD τ).loc main_v4) ↦{fullShare} Vv main_v4) ∗ (((c.tc : Thread nD τ).loc main_v6) ↦{fullShare} Vv main_v6)
      ∗ (((c.tc : Thread nD τ).loc main_arg2) ↦{fullShare} Vv main_arg2) ∗ (((c.tc : Thread nD τ).loc main_v0) ↦{fullShare} Vv main_v0)
      ∗ (((c.tc : Thread nD τ).loc main_v7) ↦{fullShare} Vv main_v7)) := by
  unfold Pipeline.arrBufs
  exact bigSep_eq_bigSepL_of_eq [main_arg0, main_v2, main_v4, main_v6, main_arg2, main_v0, main_v7] (by decide) (by decide) _

/-- At the region's entry the distinct buffers behind the windows' arrays, each whole, make the pipeline's arrays:
    the features array is split in two halves. -/
theorem hsplit (c : Dev nD) :
    (Pipeline.arrBufs spec0 c (V m c) : sProp 𝕄) ⊢ (dats m 0 c).arrays ((dats m 0 c).arrAt · 0) := by
  rw [arrays_chain, arrBufs_chain]
  iintro ⟨H0, H2, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-! ## The reshape after the region -/

/-- The buffer contents at the region's exit, as far as the reshape after it reads them: the result array at what the
    64 write-backs left, everything else as at the region's entry. -/
def Wexit (c : Dev nD) : Valuation τ sig (Elt F) := by
  classical
  exact Function.update (V0 m c) (Proc.devRef .tc main_v7) ((dats m 0 c).arrAt 7 cfg0.N)

theorem Wexit_v7 (c : Dev nD) : Wexit m c (Proc.devRef .tc main_v7) = (dats m 0 c).arrAt 7 cfg0.N := by
  unfold Wexit; exact Function.update_self _ _ _

theorem Wexit_ne (c : Dev nD) (b : Ref sig .tc) (h : b ≠ main_v7) : Wexit m c (Proc.devRef .tc b) = V m c b := by
  unfold Wexit; exact Function.update_of_ne (StableHlo.devRef_ne_of_ne h) _ _

/-- The buffer contents at the program's end: after the reshape. -/
def Vend (c : Dev nD) (b : Ref sig .tc) : Buf (Elt F) ((c : Thread nD τ).loc b) :=
  StableHlo.after hostOps1 (Wexit m c) (Proc.devRef .tc b)

/-- The reshape writes only its result. -/
theorem Vend_ne (c : Dev nD) (b : Ref sig .tc) (h8 : b ≠ main_v8) (h7 : b ≠ main_v7) : Vend m c b = V m c b := by
  unfold Vend
  simp only [hostOps1, StableHlo.after_cons, StableHlo.after_nil]
  rw [StableHlo.reshape_result_ne _ _ _ _ _ _ _ h8, Wexit_ne m c b h7]

theorem Vend_v7 (c : Dev nD) : Vend m c main_v7 = (dats m 0 c).arrAt 7 cfg0.N := by
  unfold Vend
  simp only [hostOps1, StableHlo.after_cons, StableHlo.after_nil]
  rw [StableHlo.reshape_result_ne _ _ _ _ _ _ _ (by decide : main_v7 ≠ main_v8), Wexit_v7]

/-- The result of the program: the folded result array re-laid with its last axis split in (3, 128). -/
theorem Vend_v8 (c : Dev nD) : Vend m c main_v8
    = shapeCast S16x128x128x3x128 ((dats m 0 c).arrAt 7 cfg0.N : FVec F S16x128x128x384 .f32) shapeCasts_S16x128x128x384_S16x128x128x3x128 := by
  unfold Vend
  simp only [hostOps1, StableHlo.after_cons, StableHlo.after_nil]
  rw [StableHlo.reshape_result', Wexit_v7]
  rfl

/-- The two buffers the reshape touches, held whole. -/
theorem held_pair (c : Dev nD) (W : Valuation τ sig (Elt F)) :
    (StableHlo.held (c.tc : Thread nD τ) {Proc.devRef .tc main_v7, Proc.devRef .tc main_v8} W : sProp 𝕄)
      = iprop((((c.tc : Thread nD τ).loc main_v7) ↦{fullShare} W (Proc.devRef .tc main_v7))
          ∗ (((c.tc : Thread nD τ).loc main_v8) ↦{fullShare} W (Proc.devRef .tc main_v8))) := by
  unfold StableHlo.held
  rw [bigSep_insert (by rw [Finset.mem_singleton]; exact StableHlo.devRef_ne_of_ne (by decide)), bigSep_singleton]
  rfl

/-- The same two buffers after the reshape: the result array as it was, the program's result written. -/
theorem held_exit (c : Dev nD) :
    (StableHlo.held (c.tc : Thread nD τ) {Proc.devRef .tc main_v7, Proc.devRef .tc main_v8} (StableHlo.after hostOps1 (Wexit m c)) : sProp 𝕄)
      = iprop((((c.tc : Thread nD τ).loc main_v7) ↦{fullShare} (dats m 0 c).arrAt 7 cfg0.N)
          ∗ (((c.tc : Thread nD τ).loc main_v8) ↦{fullShare} Vend m c main_v8)) := by
  rw [held_pair, show StableHlo.after hostOps1 (Wexit m c) (Proc.devRef .tc main_v7) = (dats m 0 c).arrAt 7 cfg0.N from Vend_v7 m c]
  rfl

-- a rule stated for any thread is applied at the TensorCore thread
set_option backward.isDefEq.respectTransparency.types false in
/-- From the region's exit the reshape runs, reading the result array and writing the program's result; every other
    buffer is as it was. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  rw [arrays_chain, unscopedRest0_eq, unscopedRest0_eq,
    Vend_ne m c main_arg1 (by decide) (by decide), Vend_ne m c main_arg3 (by decide) (by decide),
    Vend_ne m c main_v1 (by decide) (by decide), Vend_ne m c main_v3 (by decide) (by decide),
    Vend_ne m c main_v5 (by decide) (by decide)]
  iintro ⟨Hk, Hb, ⟨A0, A1, A2, A3, A4, A5, A6, A7⟩, ⟨R1, R3, Rv1, Rv3, Rv5, Rv8⟩⟩
  rw [Pipeline.chain_cons, Pipeline.chain_nil]
  ihave Hh := (Entails.of_eq (held_pair c (Wexit m c)).symm) $$ [A7 Rv8]
  · rw [Wexit_v7, Wexit_ne m c main_v8 (by decide)]
    isplitl [A7]; · iexact A7
    iexact Rv8
  iapply (StableHlo.wp_seq (Variants.lift Variants.none) none Set.univ c {Proc.devRef .tc main_v7, Proc.devRef .tc main_v8} _ hostOps1
    (by intro op hop; simp only [hostOps1, List.mem_cons, List.mem_nil_iff, or_false] at hop; subst hop; exact Finset.Subset.refl _)
    (List.forall_iff_forall_mem.mp hostOps1_fresh) (Wexit m c)) $$ [Hb Hh]
  · isplitl [Hb]; · iexact Hb
    iexact Hh
  iintro ⟨Hb, Hh⟩
  rw [wp_pure]
  imodintro
  iapply Hk
  ihave Hh' := (Entails.of_eq (held_exit m c)) $$ Hh
  icases Hh' with ⟨A7, Rv8⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R3]; · iexact R3
  isplitl [Rv1]; · iexact Rv1
  isplitl [Rv3]; · iexact Rv3
  isplitl [Rv5]; · iexact Rv5
  iexact Rv8

/-! ## The run -/

/-! No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

-- the launch theorem's implicit arguments are found by unifying its conclusion with this one
set_option backward.isDefEq.respectTransparency.types false in
/-- From any memory with zero counters every weakly fair execution of the program terminates; at the end the program's
    result holds the re-laid array the region's write-backs left, and the four arguments are unchanged. -/
theorem run_main : θ_run defs (onTc (τ := τ) (main (F := F))) ⟨m, fun _ => 0, ρ⟩ (fun r => ∀ c : Dev nD,
      r.2.mem ((c.tc : Thread nD τ).loc main_v8) = Vend m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (fun q => (cfgs q).toPCfg (Val := Elt F)) (fun q => (cfgs q).toPCfg_adm) (dats m) ()
    cellOf_inj (0 : Fin 1) winFacts₀0 (Pipeline.PreFacts.none _) emb₁ defs₀ Variants.none m ρ main
    (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m) (fun _ k => k.elim0)
    (fun _ => iprop(emp)) (fun _ => iprop(emp)) (fun c => Pipeline.unscopedRest spec0 c (V m c)) (fun c => Pipeline.unscopedRest spec0 c (Vend m c))
    (fun c => by
      rw [Pipeline.unscopedRestP_none]
      iintro H; isplitr; · iempintro
      iexact H)
    (fun c => by
      show iprop(_ ∗ _ ∗ Pipeline.scopedRest spec0 c) ⊢ Pipeline.scopedRest spec0 c
      iintro ⟨-, -, HR⟩; iexact HR)
    (fun c => by
      show Pipeline.scopedRest spec0 c ⊢ iprop(_ ∗ Pipeline.scopedRest spec0 c)
      iintro HR; isplitr; · iempintro
      iexact HR)
    (htail m)
    (fun c s => ∀ b ∈ Pipeline.restRefs sig spec0, s.mem ((c.tc : Thread nD τ).loc b) = Vend m c b)
    (fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (fun s h c => ⟨(h c).2.2 main_v8 (Pipeline.mem_restRefs_of main_v8 (by decide) (by decide)),
      ((h c).1 0).trans (((dats m 0 c).arrAt_in 0 rfl _).trans ((A_eq m c 0).trans (V_main_arg0 m c))),
      ((h c).2.2 main_arg1 (Pipeline.mem_restRefs_of main_arg1 (by decide) (by decide))).trans
        ((Vend_ne m c main_arg1 (by decide) (by decide)).trans (V_main_arg1 m c)),
      ((h c).1 5).trans (((dats m 0 c).arrAt_in 5 rfl _).trans ((A_eq m c 5).trans (V_main_arg2 m c))),
      ((h c).2.2 main_arg3 (Pipeline.mem_restRefs_of main_arg3 (by decide) (by decide))).trans
        ((Vend_ne m c main_arg3 (by decide) (by decide)).trans (V_main_arg3 m c))⟩)

end Cert.KernelIdeal.Hand

end
-- ==== Proof.Spec.lean ====
/-
  The value both programs compute, as one function of the four argument arrays.

  With x : [16,128,64] the node features, d : [16,128,128,3] the pair distances, w : [128,128] the weight whose
  rows 0..63 act on the row node and rows 64..127 on the column node, and β : [128] the bias, the result at
  (b, r, j, c, g) is

      max( ( Σ_k x[b,r,k]·w[k,g]  +  Σ_k x[b,j,k]·w[64+k,g]  +  β[g] ) · d[b,r,j,c] , 0 )

  on the extended reals: two contractions over the 64 features, a bias, one product with the distance coordinate,
  and the positive part.
-/
import Idealize.ShloMosaic.PureOps.Ideal
import Idealize.ShloMosaic.Lib.ValueIdx

noncomputable section

open scoped BigOperators

namespace Cert.Spec

open Idealize.ShloMosaic Idealize.ShloMosaic.ValueIdx

/-- Row `k` of the upper half of the weight (the rows that multiply the row node's features). -/
abbrev lo (k : Fin 64) : Fin 128 := ⟨k.val, by omega⟩
/-- Row `64 + k` of the weight (the rows that multiply the column node's features). -/
abbrev hi (k : Fin 64) : Fin 128 := ⟨64 + k.val, by omega⟩

/-- The pair term before the distance: the row node's projection, the column node's projection and the bias. -/
def pair (x : FVec Ideal ⟨3, ![16, 128, 64]⟩ .f32) (w : FVec Ideal ⟨2, ![128, 128]⟩ .f32) (β : FVec Ideal ⟨1, ![128]⟩ .f32)
    (b : Fin 16) (r j : Fin 128) (g : Fin 128) : EReal :=
  (∑ k : Fin 64, x (ix3 b r k) * w (ix2 (lo k) g)) + (∑ k : Fin 64, x (ix3 b j k) * w (ix2 (hi k) g)) + β (ix1 g)

/-- The result at coordinates. -/
def at5 (x : FVec Ideal ⟨3, ![16, 128, 64]⟩ .f32) (d : FVec Ideal ⟨4, ![16, 128, 128, 3]⟩ .f32)
    (w : FVec Ideal ⟨2, ![128, 128]⟩ .f32) (β : FVec Ideal ⟨1, ![128]⟩ .f32)
    (b : Fin 16) (r j : Fin 128) (c : Fin 3) (g : Fin 128) : EReal :=
  max (pair x w β b r j g * d (ix4 b r j c)) (Ideal.ofBits .f32 0x00000000#32)

/-- The whole result array. -/
def G (x : FVec Ideal ⟨3, ![16, 128, 64]⟩ .f32) (d : FVec Ideal ⟨4, ![16, 128, 128, 3]⟩ .f32)
    (w : FVec Ideal ⟨2, ![128, 128]⟩ .f32) (β : FVec Ideal ⟨1, ![128]⟩ .f32) :
    FVec Ideal ⟨5, ![16, 128, 128, 3, 128]⟩ .f32 :=
  fun i => at5 x d w β (i 0) (i 1) (i 2) (i 3) (i 4)

theorem G_ix5 (x : FVec Ideal ⟨3, ![16, 128, 64]⟩ .f32) (d : FVec Ideal ⟨4, ![16, 128, 128, 3]⟩ .f32)
    (w : FVec Ideal ⟨2, ![128, 128]⟩ .f32) (β : FVec Ideal ⟨1, ![128]⟩ .f32)
    (b : Fin 16) (r j : Fin 128) (c : Fin 3) (g : Fin 128) :
    G x d w β (ix5 b r j c g) = at5 x d w β b r j c g := rfl

end Cert.Spec

end
-- ==== Proof.PayloadAt.lean ====
/-
  The kernel's arithmetic at one element, on the extended reals.

  One grid point holds a block of 32 row nodes (features x₀ : [1,32,64]), all 128 column nodes (features x₃ : [1,128,64]),
  the weight w : [128,128], the bias β : [1,128] and three distance coordinates d : [1,32,128] each. The body forms

      P[r,j,g] = Σ_k x₀[0,r,k]·w[k,g]  +  Σ_k x₃[0,j,k]·w[64+k,g]  +  β[0,g]

  (two contractions over the 64 features against the upper and lower halves of the weight, spread over the missing
  node axis, and the bias spread over both node axes), and stores, for each distance coordinate, max(P[r,j,g]·d[0,r,j], 0).

  Every layout step (a unit axis added or dropped, a value spread along an axis, a half of the weight cut out) reads its
  operand at one index; every arithmetic step acts element by element; a change of number format is the identity. So
  the stored element is the formula above, coordinate by coordinate.
-/
import proofs.«170049_j9388798509584_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«170049_j9388798509584_2_alg».proof.Proof.Spec

noncomputable section

open scoped BigOperators

namespace Cert.KernelIdeal.PayloadAt

open Cert.KernelIdeal Cert.KernelIdeal.Gen Idealize.ShloMosaic Idealize.ShloMosaic.ValueIdx

variable [Cert.KernelIdeal.Facts]

/-! ## The layout steps, each read at coordinates -/

section Layout
variable {α : Type}

/-- [32,128] → [32,1,128]: the unit middle axis carries no position. -/
theorem cast_32x128_32x1x128 (x : S32x128.Idx → α) (h : S32x128.ShapeCasts S32x1x128) (r : Fin 32) (u : Fin 1) (g : Fin 128) :
    shapeCast S32x1x128 x h (ix3 r u g) = x (ix2 r g) :=
  shapeCast_apply x h _ _ (by
    have hu : u.val = 0 := by omega
    rw [Shape.rowMajor_val_two, Shape.rowMajor_val_three]
    show r.val * 128 + g.val = (r.val * 1 + u.val) * 128 + g.val
    rw [hu, Nat.mul_one, Nat.add_zero])

/-- [32,128] → [32,128,1]: the unit last axis carries no position. -/
theorem cast_32x128_32x128x1 (x : S32x128.Idx → α) (h : S32x128.ShapeCasts S32x128x1) (r : Fin 32) (j : Fin 128) (u : Fin 1) :
    shapeCast S32x128x1 x h (ix3 r j u) = x (ix2 r j) :=
  shapeCast_apply x h _ _ (by
    have hu : u.val = 0 := by omega
    rw [Shape.rowMajor_val_two, Shape.rowMajor_val_three]
    show r.val * 128 + j.val = (r.val * 128 + j.val) * 1 + u.val
    rw [hu, Nat.mul_one, Nat.add_zero])

/-- [128] → [1,1,128]: two unit axes in front. -/
theorem cast_128_1x1x128 (x : S128.Idx → α) (h : S128.ShapeCasts S1x1x128) (u u' : Fin 1) (g : Fin 128) :
    shapeCast S1x1x128 x h (ix3 u u' g) = x (ix1 g) :=
  shapeCast_apply x h _ _ (by
    have hu : u.val = 0 := by omega
    have hu' : u'.val = 0 := by omega
    rw [Shape.rowMajor_val_one, Shape.rowMajor_val_three]
    show g.val = (u.val * 1 + u'.val) * 128 + g.val
    omega)

/-- [32,1,128] spread over the column-node axis. -/
theorem spread_32x1x128 (x : S32x1x128.Idx → α) (h : S32x1x128.Broadcasts S32x128x128) (r : Fin 32) (j g : Fin 128) :
    broadcastTo S32x128x128 x h (ix3 r j g) = x (ix3 r (0 : Fin 1) g) := by
  refine broadcastTo_apply x h (ix3 r j g) (ix3 r (0 : Fin 1) g) fun ax => ?_
  match ax with
  | ⟨0, _⟩ => rfl
  | ⟨1, _⟩ => rfl
  | ⟨2, _⟩ => rfl

/-- [1,128,128] spread over the row-node axis. -/
theorem spread_1x128x128 (x : S1x128x128.Idx → α) (h : S1x128x128.Broadcasts S32x128x128) (r : Fin 32) (j g : Fin 128) :
    broadcastTo S32x128x128 x h (ix3 r j g) = x (ix3 (0 : Fin 1) j g) := by
  refine broadcastTo_apply x h (ix3 r j g) (ix3 (0 : Fin 1) j g) fun ax => ?_
  match ax with
  | ⟨0, _⟩ => rfl
  | ⟨1, _⟩ => rfl
  | ⟨2, _⟩ => rfl

/-- [1,1,128] spread over both node axes. -/
theorem spread_1x1x128 (x : S1x1x128.Idx → α) (h : S1x1x128.Broadcasts S32x128x128) (r : Fin 32) (j g : Fin 128) :
    broadcastTo S32x128x128 x h (ix3 r j g) = x (ix3 (0 : Fin 1) (0 : Fin 1) g) := by
  refine broadcastTo_apply x h (ix3 r j g) (ix3 (0 : Fin 1) (0 : Fin 1) g) fun ax => ?_
  match ax with
  | ⟨0, _⟩ => rfl
  | ⟨1, _⟩ => rfl
  | ⟨2, _⟩ => rfl

/-- [32,128,1] spread over the output-feature axis. -/
theorem spread_32x128x1 (x : S32x128x1.Idx → α) (h : S32x128x1.Broadcasts S32x128x128) (r : Fin 32) (j g : Fin 128) :
    broadcastTo S32x128x128 x h (ix3 r j g) = x (ix3 r j (0 : Fin 1)) := by
  refine broadcastTo_apply x h (ix3 r j g) (ix3 r j (0 : Fin 1)) fun ax => ?_
  match ax with
  | ⟨0, _⟩ => rfl
  | ⟨1, _⟩ => rfl
  | ⟨2, _⟩ => rfl

/-- A distance coordinate [1,32,128], with its unit axis dropped, a unit axis added at the end and spread over the
    output features, reads at (r, j, g) the distance of the pair (r, j). -/
theorem distance_at (v : S1x32x128.Idx → α) (h1 : S1x32x128.ShapeCasts S32x128) (h2 : S32x128.ShapeCasts S32x128x1)
    (h3 : S32x128x1.Broadcasts S32x128x128) (r : Fin 32) (j g : Fin 128) :
    broadcastTo S32x128x128 (shapeCast S32x128x1 (shapeCast S32x128 v h1) h2) h3 (ix3 r j g) = v (ix3 (0 : Fin 1) r j) :=
  (spread_32x128x1 _ h3 r j g).trans ((cast_32x128_32x128x1 _ h2 r j 0).trans (shapeCast_1ab_ab_apply v h1 r j))

/-- The bias [1,128], flattened, given two unit axes and spread over both node axes, reads at (r, j, g) the bias of
    output feature g. -/
theorem bias_at (v : S1x128.Idx → α) (h1 : S1x128.ShapeCasts S128) (h2 : S128.ShapeCasts S1x1x128)
    (h3 : S1x1x128.Broadcasts S32x128x128) (r : Fin 32) (j g : Fin 128) :
    broadcastTo S32x128x128 (shapeCast S1x1x128 (shapeCast S128 v h1) h2) h3 (ix3 r j g) = v (ix2 (0 : Fin 1) g) :=
  (spread_1x1x128 _ h3 r j g).trans ((cast_128_1x1x128 _ h2 0 0 g).trans (shapeCast_1a_a_apply v h1 g))

end Layout

/-! ## The two contractions: a product into the zero accumulator is the sum over the one contracted axis -/

theorem rowdot_lhs0 (i : S32x128.Idx) (q : dot_S32x64_S64x128_S32x128_1_0_0_1_n_n.contr.Idx) :
    (dot_S32x64_S64x128_S32x128_1_0_0_1_n_n.lhsIdx i q 0).val = (i 0).val := by
  unfold DotDims.lhsIdx
  rw [dif_neg (show ¬(0 : Fin S32x64.rank) ∈ dot_S32x64_S64x128_S32x128_1_0_0_1_n_n.lhsBatch by decide), dif_pos (show (0 : Fin S32x64.rank) ∈ dot_S32x64_S64x128_S32x128_1_0_0_1_n_n.lhsNonContracting by decide)]
  rfl
theorem rowdot_lhs1 (i : S32x128.Idx) (q : dot_S32x64_S64x128_S32x128_1_0_0_1_n_n.contr.Idx) :
    (dot_S32x64_S64x128_S32x128_1_0_0_1_n_n.lhsIdx i q 1).val = (q ⟨0, by decide⟩).val :=
  dot_S32x64_S64x128_S32x128_1_0_0_1_n_n.lhsIdx_val_of_single rfl i q
theorem rowdot_rhs0 (i : S32x128.Idx) (q : dot_S32x64_S64x128_S32x128_1_0_0_1_n_n.contr.Idx) :
    (dot_S32x64_S64x128_S32x128_1_0_0_1_n_n.rhsIdx i q 0).val = (q ⟨0, by decide⟩).val :=
  dot_S32x64_S64x128_S32x128_1_0_0_1_n_n.rhsIdx_val_of_single rfl i q
theorem rowdot_rhs1 (i : S32x128.Idx) (q : dot_S32x64_S64x128_S32x128_1_0_0_1_n_n.contr.Idx) :
    (dot_S32x64_S64x128_S32x128_1_0_0_1_n_n.rhsIdx i q 1).val = (i 1).val := by
  unfold DotDims.rhsIdx
  rw [dif_neg (show ¬(1 : Fin S64x128.rank) ∈ dot_S32x64_S64x128_S32x128_1_0_0_1_n_n.rhsBatch by decide), dif_pos (show (1 : Fin S64x128.rank) ∈ dot_S32x64_S64x128_S32x128_1_0_0_1_n_n.rhsNonContracting by decide)]
  rfl

/-- The row nodes' product [32,64]·[64,128] into zero, at (p, g): the sum over the 64 features. -/
theorem rowdot_at (l : FVec Ideal S32x64 .bf16) (w : FVec Ideal S64x128 .bf16) (p : Fin 32) (g : Fin 128) :
    matmul dot_S32x64_S64x128_S32x128_1_0_0_1_n_n none l w (constant S32x128 .f32 0x00000000#32) (ix2 p g)
      = ∑ k : Fin 64, l (ix2 p k) * w (ix2 k g) := by
  refine (Ideal.matmul_constant_zero_apply dot_S32x64_S64x128_S32x128_1_0_0_1_n_n none l w (ix2 p g)).trans ?_
  rw [← Equiv.sum_comp (contrEquiv1 dot_S32x64_S64x128_S32x128_1_0_0_1_n_n 64 rfl rfl).symm]
  refine Finset.sum_congr rfl fun k _ => ?_
  have hk := contrEquiv1_symm_val dot_S32x64_S64x128_S32x128_1_0_0_1_n_n 64 rfl rfl k
  have el : dot_S32x64_S64x128_S32x128_1_0_0_1_n_n.lhsIdx (ix2 p g) ((contrEquiv1 dot_S32x64_S64x128_S32x128_1_0_0_1_n_n 64 rfl rfl).symm k) = ix2 p k := funext fun a => Fin.ext (by
    match a with
    | ⟨0, _⟩ => exact rowdot_lhs0 _ _
    | ⟨1, _⟩ => exact (rowdot_lhs1 _ _).trans hk)
  have er : dot_S32x64_S64x128_S32x128_1_0_0_1_n_n.rhsIdx (ix2 p g) ((contrEquiv1 dot_S32x64_S64x128_S32x128_1_0_0_1_n_n 64 rfl rfl).symm k) = ix2 k g := funext fun a => Fin.ext (by
    match a with
    | ⟨0, _⟩ => exact (rowdot_rhs0 _ _).trans hk
    | ⟨1, _⟩ => exact rowdot_rhs1 _ _)
  rw [el, er]

theorem coldot_lhs0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem coldot_lhs1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
theorem coldot_rhs0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
theorem coldot_rhs1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- The column nodes' product [128,64]·[64,128] into zero, at (p, g): the sum over the 64 features. -/
theorem coldot_at (l : FVec Ideal S128x64 .bf16) (w : FVec Ideal S64x128 .bf16) (p : Fin 128) (g : Fin 128) :
    matmul dot_S128x64_S64x128_S128x128_1_0_0_1_n_n none l w (constant S128x128 .f32 0x00000000#32) (ix2 p g)
      = ∑ k : Fin 64, l (ix2 p k) * w (ix2 k g) := by
  refine (Ideal.matmul_constant_zero_apply dot_S128x64_S64x128_S128x128_1_0_0_1_n_n none l w (ix2 p g)).trans ?_
  rw [← Equiv.sum_comp (contrEquiv1 dot_S128x64_S64x128_S128x128_1_0_0_1_n_n 64 rfl rfl).symm]
  refine Finset.sum_congr rfl fun k _ => ?_
  have hk := contrEquiv1_symm_val dot_S128x64_S64x128_S128x128_1_0_0_1_n_n 64 rfl rfl k
  have el : dot_S128x64_S64x128_S128x128_1_0_0_1_n_n.lhsIdx (ix2 p g) ((contrEquiv1 dot_S128x64_S64x128_S128x128_1_0_0_1_n_n 64 rfl rfl).symm k) = ix2 p k := funext fun a => Fin.ext (by
    match a with
    | ⟨0, _⟩ => exact coldot_lhs0 _ _
    | ⟨1, _⟩ => exact (coldot_lhs1 _ _).trans hk)
  have er : dot_S128x64_S64x128_S128x128_1_0_0_1_n_n.rhsIdx (ix2 p g) ((contrEquiv1 dot_S128x64_S64x128_S128x128_1_0_0_1_n_n 64 rfl rfl).symm k) = ix2 k g := funext fun a => Fin.ext (by
    match a with
    | ⟨0, _⟩ => exact (coldot_rhs0 _ _).trans hk
    | ⟨1, _⟩ => exact coldot_rhs1 _ _)
  rw [el, er]

/-! ## The pair term -/

/-- The body's pair term at (r, j, g): the row node's projection through the weight's rows 0..63, the column node's
    through rows 64..127, and the bias. -/
theorem pay4_at (v0 : Vec Ideal S1x32x64 .f32) (v3 : Vec Ideal S1x128x64 .f32) (v6 : Vec Ideal S128x128 .f32) (v13 : Vec Ideal S1x128 .f32)
    (r : Fin 32) (j g : Fin 128) :
    k0_pay4 (F := Ideal) v0 v3 v6 v13 (ix3 r j g)
      = (∑ k : Fin 64, v0 (ix3 0 r k) * v6 (ix2 (Cert.Spec.lo k) g)) + (∑ k : Fin 64, v3 (ix3 0 j k) * v6 (ix2 (Cert.Spec.hi k) g))
        + v13 (ix2 0 g) := by
  unfold k0_pay4
  refine congrArg₂ (· + ·) (congrArg₂ (· + ·) ?_ ?_) ?_
  · refine (spread_32x1x128 _ _ r j g).trans ?_
    refine (cast_32x128_32x1x128 _ _ r 0 g).trans ?_
    refine (rowdot_at _ _ r g).trans ?_
    refine Finset.sum_congr rfl fun k _ => ?_
    refine congrArg₂ (· * ·) ?_ ?_
    · exact shapeCast_1ab_ab_apply v0 shapeCasts_S1x32x64_S32x64 r k
    · exact slice2_axis0_apply 0 v6 slices_S128x128_o0_0_S64x128 k g (Cert.Spec.lo k) (Nat.zero_add _).symm
  · refine (spread_1x128x128 _ _ r j g).trans ?_
    refine (shapeCast_ab_1ab_apply _ _ 0 j g).trans ?_
    refine (coldot_at _ _ j g).trans ?_
    refine Finset.sum_congr rfl fun k _ => ?_
    refine congrArg₂ (· * ·) ?_ ?_
    · exact shapeCast_1ab_ab_apply v3 shapeCasts_S1x128x64_S128x64 j k
    · exact slice2_axis0_apply 64 v6 slices_S128x128_o64_0_S64x128 k g (Cert.Spec.hi k) rfl
  · exact bias_at v13 shapeCasts_S1x128_S128 shapeCasts_S128_S1x1x128 broadcasts_S1x1x128_S32x128x128 r j g

/-! ## What is stored: the pair term times a distance coordinate, its positive part -/

/-- The first stored block at (0, r, j, g). -/
theorem pay1_at (v0 : Vec Ideal S1x32x64 .f32) (v3 : Vec Ideal S1x128x64 .f32) (v6 : Vec Ideal S128x128 .f32) (v13 : Vec Ideal S1x128 .f32)
    (v23 : Vec Ideal S1x32x128 .f32) (r : Fin 32) (j g : Fin 128) :
    k0_pay1 (F := Ideal) (k0_pay7 v0 v3 v6 v13 v23) (ix4 0 r j g)
      = max (k0_pay4 (F := Ideal) v0 v3 v6 v13 (ix3 r j g) * v23 (ix3 0 r j)) (Ideal.ofBits .f32 0x00000000#32) := by
  unfold k0_pay1
  refine (shapeCast_abc_1abc_apply _ _ (0 : Fin 1) r j g).trans ?_
  unfold k0_pay7
  exact congrArg (fun t => max (k0_pay4 (F := Ideal) v0 v3 v6 v13 (ix3 r j g) * t) (Ideal.ofBits .f32 0x00000000#32))
    (distance_at v23 shapeCasts_S1x32x128_S32x128 shapeCasts_S32x128_S32x128x1 broadcasts_S32x128x1_S32x128x128 r j g)

/-- The second stored block at (0, r, j, g). -/
theorem pay2_at (v22 : FVec Ideal S32x128x128 .f32) (v25 : Vec Ideal S1x32x128 .f32) (r : Fin 32) (j g : Fin 128) :
    k0_pay2 (F := Ideal) v22 (k0_pay5 v25) (ix4 0 r j g)
      = max (v22 (ix3 r j g) * v25 (ix3 0 r j)) (Ideal.ofBits .f32 0x00000000#32) := by
  unfold k0_pay2
  refine (shapeCast_abc_1abc_apply _ _ (0 : Fin 1) r j g).trans ?_
  unfold k0_pay5
  exact congrArg (fun t => max (v22 (ix3 r j g) * t) (Ideal.ofBits .f32 0x00000000#32)) (distance_at v25 shapeCasts_S1x32x128_S32x128 shapeCasts_S32x128_S32x128x1 broadcasts_S32x128x1_S32x128x128 r j g)

/-- The third stored block at (0, r, j, g). -/
theorem pay3_at (v22 : FVec Ideal S32x128x128 .f32) (v27 : Vec Ideal S1x32x128 .f32) (r : Fin 32) (j g : Fin 128) :
    k0_pay3 (F := Ideal) v22 (k0_pay6 v27) (ix4 0 r j g)
      = max (v22 (ix3 r j g) * v27 (ix3 0 r j)) (Ideal.ofBits .f32 0x00000000#32) := by
  unfold k0_pay3
  refine (shapeCast_abc_1abc_apply _ _ (0 : Fin 1) r j g).trans ?_
  unfold k0_pay6
  exact congrArg (fun t => max (v22 (ix3 r j g) * t) (Ideal.ofBits .f32 0x00000000#32)) (distance_at v27 shapeCasts_S1x32x128_S32x128 shapeCasts_S32x128_S32x128x1 broadcasts_S32x128x1_S32x128x128 r j g)

end Cert.KernelIdeal.PayloadAt

end
-- ==== Proof.SpecK.lean ====
/-
  The kernel's own layout of the result: the last two axes (3 distance coordinates × 128 output features) folded into
  one axis of 384 lanes, lane l = 128·c + g, computed from the three distance planes d_c : [16,128,128] and the bias
  laid as a row [1,128]:

      folded[b, r, j, l] = max( ( Σ_k x[b,r,k]·w[k,g] + Σ_k x[b,j,k]·w[64+k,g] + β[0,g] ) · d_{l / 128}[b,r,j] , 0 ),   g = l mod 128.
-/
import proofs.«170049_j9388798509584_2_alg».proof.Proof.Spec

noncomputable section

open scoped BigOperators

namespace Cert.Spec

open Idealize.ShloMosaic Idealize.ShloMosaic.ValueIdx

/-- The pair term with the bias read from a row [1,128]. -/
def pairRow (x : FVec Ideal ⟨3, ![16, 128, 64]⟩ .f32) (w : FVec Ideal ⟨2, ![128, 128]⟩ .f32) (β : FVec Ideal ⟨2, ![1, 128]⟩ .f32)
    (b : Fin 16) (r j : Fin 128) (g : Fin 128) : EReal :=
  (∑ k : Fin 64, x (ix3 b r k) * w (ix2 (lo k) g)) + (∑ k : Fin 64, x (ix3 b j k) * w (ix2 (hi k) g)) + β (ix2 0 g)

/-- The distance plane a lane range reads: plane 0 for lanes [0,128), plane 1 for [128,256), plane 2 for [256,384). -/
def plane (d0 d1 d2 : FVec Ideal ⟨3, ![16, 128, 128]⟩ .f32) (n : Nat) : FVec Ideal ⟨3, ![16, 128, 128]⟩ .f32 :=
  if n = 0 then d0 else if n = 1 then d1 else d2

/-- The output feature of a lane. -/
abbrev laneFeat (l : Fin 384) : Fin 128 := ⟨l.val % 128, Nat.mod_lt _ (by decide)⟩

/-- The folded result at coordinates. -/
def foldedAt (x : FVec Ideal ⟨3, ![16, 128, 64]⟩ .f32) (d0 d1 d2 : FVec Ideal ⟨3, ![16, 128, 128]⟩ .f32)
    (w : FVec Ideal ⟨2, ![128, 128]⟩ .f32) (β : FVec Ideal ⟨2, ![1, 128]⟩ .f32)
    (b : Fin 16) (r j : Fin 128) (l : Fin 384) : EReal :=
  max (pairRow x w β b r j (laneFeat l) * plane d0 d1 d2 (l.val / 128) (ix3 b r j)) (Ideal.ofBits .f32 0x00000000#32)

/-- The folded result array [16,128,128,384]. -/
def folded (x : FVec Ideal ⟨3, ![16, 128, 64]⟩ .f32) (d0 d1 d2 : FVec Ideal ⟨3, ![16, 128, 128]⟩ .f32)
    (w : FVec Ideal ⟨2, ![128, 128]⟩ .f32) (β : FVec Ideal ⟨2, ![1, 128]⟩ .f32) :
    FVec Ideal ⟨4, ![16, 128, 128, 384]⟩ .f32 :=
  fun i => foldedAt x d0 d1 d2 w β (i 0) (i 1) (i 2) (i 3)

theorem folded_ix4 (x : FVec Ideal ⟨3, ![16, 128, 64]⟩ .f32) (d0 d1 d2 : FVec Ideal ⟨3, ![16, 128, 128]⟩ .f32)
    (w : FVec Ideal ⟨2, ![128, 128]⟩ .f32) (β : FVec Ideal ⟨2, ![1, 128]⟩ .f32)
    (b : Fin 16) (r j : Fin 128) (l : Fin 384) :
    folded x d0 d1 d2 w β (ix4 b r j l) = foldedAt x d0 d1 d2 w β b r j l := rfl

end Cert.Spec

end
-- ==== Proof.FinalBlockI.lean ====
/-
  The output block of one grid point, element by element.

  The body's three stores fill the lane ranges [0,128), [128,256), [256,384) of the block [1,32,128,384]; lane l of the
  block therefore holds the piece stored for distance coordinate l / 128, read at output feature l mod 128:

      block[0, r, j, l] = max( ( Σ_k x₀[0,r,k]·w[k,g] + Σ_k x₁[0,j,k]·w[64+k,g] + β[0,g] ) · d_{l / 128}[0,r,j] , 0 ),   g = l mod 128.
-/
import proofs.«170049_j9388798509584_2_alg».proof.Proof.BodyI
import proofs.«170049_j9388798509584_2_alg».proof.Proof.PayloadAt
import proofs.«170049_j9388798509584_2_alg».proof.Proof.SpecK
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Hand
open Idealize.ShloMosaic Idealize.ShloMosaic.ValueIdx

/-! ## Coordinates of a block index -/

/-- An index of the output block is (0, r, j, l). -/
theorem exists_ix4 (y : S1x32x128x384.Idx) : ∃ (r : Fin 32) (j : Fin 128) (l : Fin 384), y = ix4 (0 : Fin 1) r j l :=
  ⟨y 1, y 2, y 3, by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl⟩

/-! ## The three pieces tile the lanes -/

/-- Lanes [256,384) lie under the last store. -/
theorem lane_hi (r : Fin 32) (j : Fin 128) (l : Fin 384) (g : Fin 128) (h : l.val = 256 + g.val) :
    (ix4 (0 : Fin 1) r j l : S1x32x128x384.Idx) = r7_2.emb (ix4 (0 : Fin 1) r j g) := by
  funext a; apply Fin.ext
  match a with
  | ⟨0, _⟩ => show (0 : Nat) = 0 + 1 * 0; rfl
  | ⟨1, _⟩ => show r.val = 0 + 1 * r.val; omega
  | ⟨2, _⟩ => show j.val = 0 + 1 * j.val; omega
  | ⟨3, _⟩ => show l.val = 256 + 1 * g.val; omega

/-- Lanes [128,256) lie under the middle store, -/
theorem lane_mid (r : Fin 32) (j : Fin 128) (l : Fin 384) (g : Fin 128) (h : l.val = 128 + g.val) :
    (ix4 (0 : Fin 1) r j l : S1x32x128x384.Idx) = r7_1.emb (ix4 (0 : Fin 1) r j g) := by
  funext a; apply Fin.ext
  match a with
  | ⟨0, _⟩ => show (0 : Nat) = 0 + 1 * 0; rfl
  | ⟨1, _⟩ => show r.val = 0 + 1 * r.val; omega
  | ⟨2, _⟩ => show j.val = 0 + 1 * j.val; omega
  | ⟨3, _⟩ => show l.val = 128 + 1 * g.val; omega

/-- and not under the last. -/
theorem lane_not_hi (r : Fin 32) (j : Fin 128) (l : Fin 384) (h : l.val < 256) :
    (ix4 (0 : Fin 1) r j l : S1x32x128x384.Idx) ∉ r7_2.set := by
  rw [Rect.mem_set_unit]
  intro hm
  have h3 : 256 ≤ l.val := (hm 3).1
  omega

/-- Lanes [0,128) lie under the first store, -/
theorem lane_lo (r : Fin 32) (j : Fin 128) (l : Fin 384) (g : Fin 128) (h : l.val = g.val) :
    (ix4 (0 : Fin 1) r j l : S1x32x128x384.Idx) = r7_0.emb (ix4 (0 : Fin 1) r j g) := by
  funext a; apply Fin.ext
  match a with
  | ⟨0, _⟩ => show (0 : Nat) = 0 + 1 * 0; rfl
  | ⟨1, _⟩ => show r.val = 0 + 1 * r.val; omega
  | ⟨2, _⟩ => show j.val = 0 + 1 * j.val; omega
  | ⟨3, _⟩ => show l.val = 0 + 1 * g.val; omega

/-- and not under the middle one. -/
theorem lane_not_mid (r : Fin 32) (j : Fin 128) (l : Fin 384) (h : l.val < 128) :
    (ix4 (0 : Fin 1) r j l : S1x32x128x384.Idx) ∉ r7_1.set := by
  rw [Rect.mem_set_unit]
  intro hm
  have h3 : 128 ≤ l.val := (hm 3).1
  omega

/-- The block the three stores leave, read at lane l: the piece of the lane's range at lane l mod 128. -/
theorem canon_lanes (p2 p1 p0 : Vec Ideal S1x32x128x128 .f32) (r : Fin 32) (j : Fin 128) (l : Fin 384) :
    View.canon ([⟨r7_2, p2⟩, ⟨r7_1, p1⟩, ⟨r7_0, p0⟩] : List (View.Piece (Elt Ideal) S1x32x128x384 .f32)) (ix4 (0 : Fin 1) r j l)
      = if l.val / 128 = 0 then p0 (ix4 0 r j (Cert.Spec.laneFeat l))
        else if l.val / 128 = 1 then p1 (ix4 0 r j (Cert.Spec.laneFeat l)) else p2 (ix4 0 r j (Cert.Spec.laneFeat l)) := by
  have hl : l.val < 384 := l.isLt
  by_cases h0 : l.val / 128 = 0
  · rw [if_pos h0]
    refine (View.canon_cons_of_not_mem (⟨r7_2, p2⟩ : View.Piece (Elt Ideal) S1x32x128x384 .f32) [⟨r7_1, p1⟩, ⟨r7_0, p0⟩]
      (lane_not_hi r j l (by omega))).trans ?_
    refine (View.canon_cons_of_not_mem (⟨r7_1, p1⟩ : View.Piece (Elt Ideal) S1x32x128x384 .f32) [⟨r7_0, p0⟩]
      (lane_not_mid r j l (by omega))).trans ?_
    exact (congrArg (View.canon ([⟨r7_0, p0⟩] : List (View.Piece (Elt Ideal) S1x32x128x384 .f32)))
      (lane_lo r j l (Cert.Spec.laneFeat l) (by show l.val = l.val % 128; omega))).trans (View.canon_cons_emb r7_0 p0 [] _)
  · rw [if_neg h0]
    by_cases h1 : l.val / 128 = 1
    · rw [if_pos h1]
      refine (View.canon_cons_of_not_mem (⟨r7_2, p2⟩ : View.Piece (Elt Ideal) S1x32x128x384 .f32) [⟨r7_1, p1⟩, ⟨r7_0, p0⟩]
        (lane_not_hi r j l (by omega))).trans ?_
      exact (congrArg (View.canon ([⟨r7_1, p1⟩, ⟨r7_0, p0⟩] : List (View.Piece (Elt Ideal) S1x32x128x384 .f32)))
        (lane_mid r j l (Cert.Spec.laneFeat l) (by show l.val = 128 + l.val % 128; omega))).trans (View.canon_cons_emb r7_1 p1 _ _)
    · rw [if_neg h1]
      exact (congrArg (View.canon ([⟨r7_2, p2⟩, ⟨r7_1, p1⟩, ⟨r7_0, p0⟩] : List (View.Piece (Elt Ideal) S1x32x128x384 .f32)))
        (lane_hi r j l (Cert.Spec.laneFeat l) (by show l.val = 256 + l.val % 128; omega))).trans (View.canon_cons_emb r7_2 p2 _ _)

/-! ## The block's value -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body at (0, r, j, l): the positive part of the pair term of row node r, column node j and
    output feature l mod 128, times distance coordinate l / 128 of the pair. -/
theorem outBlock_at (x0 : Vec Ideal S1x32x64 .f32) (x1 : Vec Ideal S1x128x64 .f32) (x2 x3 x4 : Vec Ideal S1x32x128 .f32)
    (x5 : Vec Ideal S128x128 .f32) (x6 : Vec Ideal S1x128 .f32) (r : Fin 32) (j : Fin 128) (l : Fin 384) :
    outBlock (F := Ideal) x0 x1 x2 x3 x4 x5 x6 (ix4 (0 : Fin 1) r j l)
      = max (((∑ k : Fin 64, x0 (ix3 0 r k) * x5 (ix2 (Cert.Spec.lo k) (Cert.Spec.laneFeat l)))
              + (∑ k : Fin 64, x1 (ix3 0 j k) * x5 (ix2 (Cert.Spec.hi k) (Cert.Spec.laneFeat l)))
              + x6 (ix2 0 (Cert.Spec.laneFeat l)))
            * (if l.val / 128 = 0 then x2 (ix3 0 r j) else if l.val / 128 = 1 then x3 (ix3 0 r j) else x4 (ix3 0 r j)))
          (Ideal.ofBits .f32 0x00000000#32) := by
  have e0 : View.ld x0 w0 = x0 := View.ld_unit_zero (S := S1x32x64) hz3 _ x0
  have e1 : View.ld x1 w1 = x1 := View.ld_unit_zero (S := S1x128x64) hz3 _ x1
  have e2 : View.ld x2 wd = x2 := View.ld_unit_zero (S := S1x32x128) hz3 _ x2
  have e3 : View.ld x3 wd = x3 := View.ld_unit_zero (S := S1x32x128) hz3 _ x3
  have e4 : View.ld x4 wd = x4 := View.ld_unit_zero (S := S1x32x128) hz3 _ x4
  have e5 : View.ld x5 w5 = x5 := View.ld_unit_zero (S := S128x128) hz2 _ x5
  have e6 : View.ld x6 w6 = x6 := View.ld_unit_zero (S := S1x128) hz2 _ x6
  unfold outBlock
  rw [e0, e1, e2, e3, e4, e5, e6]
  refine (canon_lanes _ _ _ r j l).trans ?_
  by_cases h0 : l.val / 128 = 0
  · rw [if_pos h0, if_pos h0]
    refine (PayloadAt.pay1_at x0 x1 x5 x6 x2 r j (Cert.Spec.laneFeat l)).trans ?_
    rw [PayloadAt.pay4_at x0 x1 x5 x6 r j (Cert.Spec.laneFeat l)]
  · rw [if_neg h0, if_neg h0]
    by_cases h1 : l.val / 128 = 1
    · rw [if_pos h1, if_pos h1]
      refine (PayloadAt.pay2_at _ x3 r j (Cert.Spec.laneFeat l)).trans ?_
      rw [PayloadAt.pay4_at x0 x1 x5 x6 r j (Cert.Spec.laneFeat l)]
    · rw [if_neg h1, if_neg h1]
      refine (PayloadAt.pay3_at _ x4 r j (Cert.Spec.laneFeat l)).trans ?_
      rw [PayloadAt.pay4_at x0 x1 x5 x6 r j (Cert.Spec.laneFeat l)]

end Cert.KernelIdeal.Final

end
-- ==== Proof.FinalI.lean ====
/-
  From the blocks to the array.

  Grid point (b, i) writes block (b, i) of the result: rows 32i..32i+31 of batch element b, all 128 column nodes, all 384
  lanes. Its input blocks are rows 32i..32i+31 of batch element b of the features, all of batch element b's features,
  the matching tiles of the three distance planes, the whole weight and the bias row. So the block it writes back is the
  restriction of ONE function of the arrays — the folded result of the specification — to the block's rectangle; the 16 × 4
  blocks tile the array, hence the array ends holding that function.
-/
import proofs.«170049_j9388798509584_2_alg».proof.Proof.ObligI
import proofs.«170049_j9388798509584_2_alg».proof.Proof.FinalBlockI
import proofs.«170049_j9388798509584_2_alg».proof.Proof.SpecK
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The index maps over the grid -/

/-- Each input window's block index in terms of the output's, at every grid point: the row tiles move with the output
    block, the column nodes' window keeps the batch element only, the weight and the bias stay; the output's block
    indices stay in their ranges. -/
theorem idx_facts : ∀ t : Fin cfg0.N,
    win0_0.index t (0 : Fin 3) = win0_7.index t (0 : Fin 4) ∧ win0_0.index t (1 : Fin 3) = win0_7.index t (1 : Fin 4) ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 3) = win0_7.index t (0 : Fin 4) ∧ win0_2.index t (1 : Fin 3) = win0_7.index t (1 : Fin 4) ∧ win0_2.index t (2 : Fin 3) = 0
    ∧ win0_3.index t (0 : Fin 3) = win0_7.index t (0 : Fin 4) ∧ win0_3.index t (1 : Fin 3) = win0_7.index t (1 : Fin 4) ∧ win0_3.index t (2 : Fin 3) = 0
    ∧ win0_4.index t (0 : Fin 3) = win0_7.index t (0 : Fin 4) ∧ win0_4.index t (1 : Fin 3) = win0_7.index t (1 : Fin 4) ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) ≤ 15 ∧ win0_7.index t (1 : Fin 4) ≤ 3 ∧ win0_7.index t (2 : Fin 4) = 0 ∧ win0_7.index t (3 : Fin 4) = 0 :=
  (by decide +kernel : ∀ t : Fin grid0.N, _)

/-- Every block of the result is some grid point's. -/
theorem idx_onto : ∀ (q0 : Fin 16) (q1 : Fin 4), ∃ t : Fin cfg0.N, win0_7.index t = ![q0.val, q1.val, 0, 0] :=
  (by decide +kernel : ∀ (q0 : Fin 16) (q1 : Fin 4), ∃ t : Fin grid0.N, win0_7.index t = ![q0.val, q1.val, 0, 0])

/-! ## The input blocks, read where the output's rectangle says

A block's coordinate in its array is, on each axis, the block index times the block's size plus the coordinate inside
the block. Below, b is the batch element and rr = 32·i + r the row node in the array. -/

/-- The row tile of the features. -/
theorem iblk0_at (c : Dev nD) (t : Fin cfg0.N) (r : Fin 32) (k : Fin 64) (b : Fin 16) (rr : Fin 128)
    (hb : b.val = win0_7.index t (0 : Fin 4)) (hr : rr.val = win0_7.index t (1 : Fin 4) * 32 + r.val) :
    (iblk m c 0 t : Vec Ideal S1x32x64 .f32) (ix3 (0 : Fin 1) r k)
      = (V m c main_arg0 : FVec Ideal S16x128x64 .f32) (ix3 b rr k) := by
  obtain ⟨e0, e1, e2, -⟩ := idx_facts t
  unfold iblk
  rw [View.read_apply]
  show V m c main_arg0 (((cfg0.win 0).blk t).view.emb (ix3 (0 : Fin 1) r k)) = V m c main_arg0 (ix3 b rr k)
  refine congrArg (V m c main_arg0) ?_
  funext a; apply Fin.ext
  match a with
  | ⟨0, _⟩ => show win0_0.index t (0 : Fin 3) * 1 + 1 * 0 = b.val; omega
  | ⟨1, _⟩ => show win0_0.index t (1 : Fin 3) * 32 + 1 * r.val = rr.val; omega
  | ⟨2, _⟩ => show win0_0.index t (2 : Fin 3) * 64 + 1 * k.val = k.val; omega

/-- All the column nodes' features of the batch element. -/
theorem iblk1_at (c : Dev nD) (t : Fin cfg0.N) (j : Fin 128) (k : Fin 64) (b : Fin 16)
    (hb : b.val = win0_7.index t (0 : Fin 4)) :
    (iblk m c 1 t : Vec Ideal S1x128x64 .f32) (ix3 (0 : Fin 1) j k)
      = (V m c main_arg0 : FVec Ideal S16x128x64 .f32) (ix3 b j k) := by
  obtain ⟨-, -, -, e0, e1, e2, -⟩ := idx_facts t
  unfold iblk
  rw [View.read_apply]
  show V m c main_arg0 (((cfg0.win 1).blk t).view.emb (ix3 (0 : Fin 1) j k)) = V m c main_arg0 (ix3 b j k)
  refine congrArg (V m c main_arg0) ?_
  funext a; apply Fin.ext
  match a with
  | ⟨0, _⟩ => show win0_1.index t (0 : Fin 3) * 1 + 1 * 0 = b.val; omega
  | ⟨1, _⟩ => show win0_1.index t (1 : Fin 3) * 128 + 1 * j.val = j.val; omega
  | ⟨2, _⟩ => show win0_1.index t (2 : Fin 3) * 64 + 1 * k.val = k.val; omega

/-- The tile of the first distance plane. -/
theorem iblk2_at (c : Dev nD) (t : Fin cfg0.N) (r : Fin 32) (j : Fin 128) (b : Fin 16) (rr : Fin 128)
    (hb : b.val = win0_7.index t (0 : Fin 4)) (hr : rr.val = win0_7.index t (1 : Fin 4) * 32 + r.val) :
    (iblk m c 2 t : Vec Ideal S1x32x128 .f32) (ix3 (0 : Fin 1) r j)
      = (V m c main_v2 : FVec Ideal S16x128x128 .f32) (ix3 b rr j) := by
  obtain ⟨-, -, -, -, -, -, e0, e1, e2, -⟩ := idx_facts t
  unfold iblk
  rw [View.read_apply]
  show V m c main_v2 (((cfg0.win 2).blk t).view.emb (ix3 (0 : Fin 1) r j)) = V m c main_v2 (ix3 b rr j)
  refine congrArg (V m c main_v2) ?_
  funext a; apply Fin.ext
  match a with
  | ⟨0, _⟩ => show win0_2.index t (0 : Fin 3) * 1 + 1 * 0 = b.val; omega
  | ⟨1, _⟩ => show win0_2.index t (1 : Fin 3) * 32 + 1 * r.val = rr.val; omega
  | ⟨2, _⟩ => show win0_2.index t (2 : Fin 3) * 128 + 1 * j.val = j.val; omega

/-- The tile of the second distance plane. -/
theorem iblk3_at (c : Dev nD) (t : Fin cfg0.N) (r : Fin 32) (j : Fin 128) (b : Fin 16) (rr : Fin 128)
    (hb : b.val = win0_7.index t (0 : Fin 4)) (hr : rr.val = win0_7.index t (1 : Fin 4) * 32 + r.val) :
    (iblk m c 3 t : Vec Ideal S1x32x128 .f32) (ix3 (0 : Fin 1) r j)
      = (V m c main_v4 : FVec Ideal S16x128x128 .f32) (ix3 b rr j) := by
  obtain ⟨-, -, -, -, -, -, -, -, -, e0, e1, e2, -⟩ := idx_facts t
  unfold iblk
  rw [View.read_apply]
  show V m c main_v4 (((cfg0.win 3).blk t).view.emb (ix3 (0 : Fin 1) r j)) = V m c main_v4 (ix3 b rr j)
  refine congrArg (V m c main_v4) ?_
  funext a; apply Fin.ext
  match a with
  | ⟨0, _⟩ => show win0_3.index t (0 : Fin 3) * 1 + 1 * 0 = b.val; omega
  | ⟨1, _⟩ => show win0_3.index t (1 : Fin 3) * 32 + 1 * r.val = rr.val; omega
  | ⟨2, _⟩ => show win0_3.index t (2 : Fin 3) * 128 + 1 * j.val = j.val; omega

/-- The tile of the third distance plane. -/
theorem iblk4_at (c : Dev nD) (t : Fin cfg0.N) (r : Fin 32) (j : Fin 128) (b : Fin 16) (rr : Fin 128)
    (hb : b.val = win0_7.index t (0 : Fin 4)) (hr : rr.val = win0_7.index t (1 : Fin 4) * 32 + r.val) :
    (iblk m c 4 t : Vec Ideal S1x32x128 .f32) (ix3 (0 : Fin 1) r j)
      = (V m c main_v6 : FVec Ideal S16x128x128 .f32) (ix3 b rr j) := by
  obtain ⟨-, -, -, -, -, -, -, -, -, -, -, -, e0, e1, e2, -⟩ := idx_facts t
  unfold iblk
  rw [View.read_apply]
  show V m c main_v6 (((cfg0.win 4).blk t).view.emb (ix3 (0 : Fin 1) r j)) = V m c main_v6 (ix3 b rr j)
  refine congrArg (V m c main_v6) ?_
  funext a; apply Fin.ext
  match a with
  | ⟨0, _⟩ => show win0_4.index t (0 : Fin 3) * 1 + 1 * 0 = b.val; omega
  | ⟨1, _⟩ => show win0_4.index t (1 : Fin 3) * 32 + 1 * r.val = rr.val; omega
  | ⟨2, _⟩ => show win0_4.index t (2 : Fin 3) * 128 + 1 * j.val = j.val; omega

/-- The whole weight. -/
theorem iblk5_at (c : Dev nD) (t : Fin cfg0.N) (a g : Fin 128) :
    (iblk m c 5 t : Vec Ideal S128x128 .f32) (ix2 a g) = (V m c main_arg2 : FVec Ideal S128x128 .f32) (ix2 a g) := by
  obtain ⟨-, -, -, -, -, -, -, -, -, -, -, -, -, -, -, e0, e1, -⟩ := idx_facts t
  unfold iblk
  rw [View.read_apply]
  show V m c main_arg2 (((cfg0.win 5).blk t).view.emb (ix2 a g)) = V m c main_arg2 (ix2 a g)
  refine congrArg (V m c main_arg2) ?_
  funext d; apply Fin.ext
  match d with
  | ⟨0, _⟩ => show win0_5.index t (0 : Fin 2) * 128 + 1 * a.val = a.val; omega
  | ⟨1, _⟩ => show win0_5.index t (1 : Fin 2) * 128 + 1 * g.val = g.val; omega

/-- The whole bias row. -/
theorem iblk6_at (c : Dev nD) (t : Fin cfg0.N) (g : Fin 128) :
    (iblk m c 6 t : Vec Ideal S1x128 .f32) (ix2 (0 : Fin 1) g) = (V m c main_v0 : FVec Ideal S1x128 .f32) (ix2 (0 : Fin 1) g) := by
  obtain ⟨-, -, -, -, -, -, -, -, -, -, -, -, -, -, -, -, -, e0, e1, -⟩ := idx_facts t
  unfold iblk
  rw [View.read_apply]
  show V m c main_v0 (((cfg0.win 6).blk t).view.emb (ix2 (0 : Fin 1) g)) = V m c main_v0 (ix2 (0 : Fin 1) g)
  refine congrArg (V m c main_v0) ?_
  funext d; apply Fin.ext
  match d with
  | ⟨0, _⟩ => show win0_6.index t (0 : Fin 2) * 1 + 1 * 0 = 0; omega
  | ⟨1, _⟩ => show win0_6.index t (1 : Fin 2) * 128 + 1 * g.val = g.val; omega

/-! ## What a grid point writes back -/

/-- The block point t leaves, element by element, is the folded result at the element's place in the array. -/
theorem flushed_point (c : Dev nD) (t : Fin cfg0.N) (y : S1x32x128x384.Idx) :
    outBlock (F := Ideal) (iblk m c 0 t) (iblk m c 1 t) (iblk m c 2 t) (iblk m c 3 t) (iblk m c 4 t) (iblk m c 5 t) (iblk m c 6 t) y
      = Cert.Spec.folded (V m c main_arg0 : FVec Ideal S16x128x64 .f32) (V m c main_v2 : FVec Ideal S16x128x128 .f32)
          (V m c main_v4 : FVec Ideal S16x128x128 .f32) (V m c main_v6 : FVec Ideal S16x128x128 .f32)
          (V m c main_arg2 : FVec Ideal S128x128 .f32) (V m c main_v0 : FVec Ideal S1x128 .f32)
          (((cfg0.win 7).blk t).view.emb y) := by
  obtain ⟨r, j, l, rfl⟩ := exists_ix4 y
  obtain ⟨-, -, -, -, -, -, -, -, -, -, -, -, -, -, -, -, -, -, -, e70, e71, e72, e73⟩ := idx_facts t
  have hr32 : r.val < 32 := r.isLt
  obtain ⟨b, hb⟩ : ∃ b : Fin 16, b.val = win0_7.index t (0 : Fin 4) := ⟨⟨win0_7.index t (0 : Fin 4), by omega⟩, rfl⟩
  obtain ⟨rr, hr⟩ : ∃ rr : Fin 128, rr.val = win0_7.index t (1 : Fin 4) * 32 + r.val := ⟨⟨win0_7.index t (1 : Fin 4) * 32 + r.val, by omega⟩, rfl⟩
  have he : ((cfg0.win 7).blk t).view.emb (ix4 (0 : Fin 1) r j l) = (ix4 b rr j l : S16x128x128x384.Idx) := by
    funext a; apply Fin.ext
    match a with
    | ⟨0, _⟩ => show win0_7.index t (0 : Fin 4) * 1 + 1 * 0 = b.val; omega
    | ⟨1, _⟩ => show win0_7.index t (1 : Fin 4) * 32 + 1 * r.val = rr.val; omega
    | ⟨2, _⟩ => show win0_7.index t (2 : Fin 4) * 128 + 1 * j.val = j.val; omega
    | ⟨3, _⟩ => show win0_7.index t (3 : Fin 4) * 384 + 1 * l.val = l.val; omega
  rw [he, Cert.Spec.folded_ix4]
  refine (outBlock_at (iblk m c 0 t) (iblk m c 1 t) (iblk m c 2 t) (iblk m c 3 t) (iblk m c 4 t) (iblk m c 5 t) (iblk m c 6 t) r j l).trans ?_
  unfold Cert.Spec.foldedAt Cert.Spec.pairRow
  refine congrArg (fun z => max z (Ideal.ofBits .f32 0x00000000#32)) ?_
  refine congrArg₂ (· * ·) (congrArg₂ (· + ·) (congrArg₂ (· + ·) ?_ ?_) ?_) ?_
  · exact Finset.sum_congr rfl fun k _ => congrArg₂ (· * ·) (iblk0_at m c t r k b rr hb hr) (iblk5_at m c t (Cert.Spec.lo k) (Cert.Spec.laneFeat l))
  · exact Finset.sum_congr rfl fun k _ => congrArg₂ (· * ·) (iblk1_at m c t j k b hb) (iblk5_at m c t (Cert.Spec.hi k) (Cert.Spec.laneFeat l))
  · exact iblk6_at m c t (Cert.Spec.laneFeat l)
  · unfold Cert.Spec.plane
    by_cases h0 : l.val / 128 = 0
    · rw [if_pos h0, if_pos h0]; exact iblk2_at m c t r j b rr hb hr
    · rw [if_neg h0, if_neg h0]
      by_cases h1 : l.val / 128 = 1
      · rw [if_pos h1, if_pos h1]; exact iblk3_at m c t r j b rr hb hr
      · rw [if_neg h1, if_neg h1]; exact iblk4_at m c t r j b rr hb hr

/-- What point t writes back is block t of the folded result of the arrays as the region finds them. -/
theorem flushed_eq (c : Dev nD) (t : Fin cfg0.N) :
    (dats (F := Ideal) m 0 c).flushed 7 t = ((cfg0.win 7).blk t).view.read (Elt Ideal)
      (Cert.Spec.folded (V m c main_arg0 : FVec Ideal S16x128x64 .f32) (V m c main_v2 : FVec Ideal S16x128x128 .f32)
          (V m c main_v4 : FVec Ideal S16x128x128 .f32) (V m c main_v6 : FVec Ideal S16x128x128 .f32)
          (V m c main_arg2 : FVec Ideal S128x128 .f32) (V m c main_v0 : FVec Ideal S1x128 .f32)) := by
  show (cfg0.win 7).cut (grid0.coords t) ((dats (F := Ideal) m 0 c).after 7 t) = _
  rw [after_7]
  funext y
  exact flushed_point m c t y

/-! ## The blocks tile the array -/

/-- An index of the array is in point t's block iff each coordinate is in the block's range on its axis. -/
theorem mem_blk (t : Fin cfg0.N) (i : S16x128x128x384.Idx) :
    i ∈ ((cfg0.win 7).blk t).view.set ↔ ∀ a : Fin 4, win0_7.index t a * S1x32x128x384.size a ≤ (i a).val
      ∧ (i a).val < win0_7.index t a * S1x32x128x384.size a + S1x32x128x384.size a := by
  show i ∈ ((View.whole main_v7).slice (win0_7.rect t)).set ↔ _
  rw [View.set_slice_whole, Rect.mem_set_unit]
  exact Iff.rfl

/-- Every index of the array lies in the block of the point (batch element, row / 32). -/
theorem cover (i : S16x128x128x384.Idx) :
    ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 128 := (i 2).isLt
  have hi3 : (i 3).val < 384 := (i 3).isLt
  obtain ⟨t, ht⟩ := idx_onto ⟨(i 0).val, hi0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 128 ≤ (i 2).val ∧ (i 2).val < win0_7.index t (2 : Fin 4) * 128 + 128; omega
  | ⟨3, _⟩ => show win0_7.index t (3 : Fin 4) * 384 ≤ (i 3).val ∧ (i 3).val < win0_7.index t (3 : Fin 4) * 384 + 384; omega

/-! ## The array after the run -/

/-- The result array ends holding the folded result of the arrays as the region finds them. -/
theorem final (c : Dev nD) : (dats (F := Ideal) m 0 c).arrAt 7 cfg0.N
      = Cert.Spec.folded (V m c main_arg0 : FVec Ideal S16x128x64 .f32) (V m c main_v2 : FVec Ideal S16x128x128 .f32)
          (V m c main_v4 : FVec Ideal S16x128x128 .f32) (V m c main_v6 : FVec Ideal S16x128x128 .f32)
          (V m c main_arg2 : FVec Ideal S128x128 .f32) (V m c main_v0 : FVec Ideal S1x128 .f32) :=
  (dats (F := Ideal) m 0 c).arrAt_eq_of_cover 7 _ (fun t _ => flushed_eq m c t) cover

end Cert.KernelIdeal.Final

end
-- ==== Proof.RelaidI.lean ====
/-
  The host side of the kernel's program and the re-laying of its result, at the ideal instance.

  Before the region the host lays the bias [128] as a row [1,128] and cuts the distances [16,128,128,3] into their three
  coordinate planes [16,128,128] (a last-axis slice of width one, its unit axis dropped); the features and the weight are
  left as launched. After the region it views the folded result [16,128,128,384] as [16,128,128,3,128]: lane 128·c + g
  becomes (c, g). So the folded array of SpecK over the region's inputs, so viewed, is the specification G of the four
  launched arrays.
-/
import proofs.«170049_j9388798509584_2_alg».proof.Proof.ObligI
import proofs.«170049_j9388798509584_2_alg».proof.Proof.SpecK
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Relaid

open Cert.KernelIdeal Cert.KernelIdeal.Gen Cert.KernelIdeal.Hand
open Idealize.ShloMosaic Idealize.ShloMosaic.ValueIdx Idealize.ShloMosaic.TcCoe

variable (m : (ℓ : Loc nD τ sig) → Buf (Elt Ideal) ℓ)

/-! ## The re-laying and the host side, over variables

The folded array [16,128,128,384] viewed [16,128,128,3,128] keeps every element's row-major position, so the element at
(b, r, j, c, g) is the folded array's at lane 128·c + g; that lane's feature is g and its plane is c. With the three
planes the three coordinates of the distances and the bias row the bias, the folded value there is the specification's. -/

section Pure

variable (x : FVec Ideal ⟨3, ![16, 128, 64]⟩ .f32) (d : FVec Ideal ⟨4, ![16, 128, 128, 3]⟩ .f32)
  (w : FVec Ideal ⟨2, ![128, 128]⟩ .f32) (β : FVec Ideal ⟨1, ![128]⟩ .f32)
  (d0 d1 d2 : FVec Ideal ⟨3, ![16, 128, 128]⟩ .f32) (βr : FVec Ideal ⟨2, ![1, 128]⟩ .f32)

/-- The plane a distance coordinate names is that coordinate of the distances. -/
theorem plane_at (h0 : ∀ (b : Fin 16) (r j : Fin 128), d0 (ix3 b r j) = d (ix4 b r j (⟨0, by decide⟩ : Fin 3)))
    (h1 : ∀ (b : Fin 16) (r j : Fin 128), d1 (ix3 b r j) = d (ix4 b r j (⟨1, by decide⟩ : Fin 3)))
    (h2 : ∀ (b : Fin 16) (r j : Fin 128), d2 (ix3 b r j) = d (ix4 b r j (⟨2, by decide⟩ : Fin 3)))
    (b : Fin 16) (r j : Fin 128) (cc : Fin 3) :
    Cert.Spec.plane d0 d1 d2 cc.val (ix3 b r j) = d (ix4 b r j cc) := by
  match cc with
  | ⟨0, _⟩ => exact h0 b r j
  | ⟨1, _⟩ => exact h1 b r j
  | ⟨2, _⟩ => exact h2 b r j

/-- The pair term with the bias read from the row is the pair term. -/
theorem pairRow_eq (hβ : ∀ g : Fin 128, βr (ix2 (0 : Fin 1) g) = β (ix1 g)) (b : Fin 16) (r j g : Fin 128) :
    Cert.Spec.pairRow x w βr b r j g = Cert.Spec.pair x w β b r j g := by
  unfold Cert.Spec.pairRow Cert.Spec.pair
  rw [hβ g]

/-- The folded result at lane 128·c + g is the result at (c, g). -/
theorem foldedAt_lane (h0 : ∀ (b : Fin 16) (r j : Fin 128), d0 (ix3 b r j) = d (ix4 b r j (⟨0, by decide⟩ : Fin 3)))
    (h1 : ∀ (b : Fin 16) (r j : Fin 128), d1 (ix3 b r j) = d (ix4 b r j (⟨1, by decide⟩ : Fin 3)))
    (h2 : ∀ (b : Fin 16) (r j : Fin 128), d2 (ix3 b r j) = d (ix4 b r j (⟨2, by decide⟩ : Fin 3)))
    (hβ : ∀ g : Fin 128, βr (ix2 (0 : Fin 1) g) = β (ix1 g))
    (b : Fin 16) (r j : Fin 128) (cc : Fin 3) (g : Fin 128) (hl : 128 * cc.val + g.val < 384) :
    Cert.Spec.foldedAt x d0 d1 d2 w βr b r j ⟨128 * cc.val + g.val, hl⟩ = Cert.Spec.at5 x d w β b r j cc g := by
  have hg : Cert.Spec.laneFeat ⟨128 * cc.val + g.val, hl⟩ = g :=
    Fin.ext (by show (128 * cc.val + g.val) % 128 = g.val; have := g.isLt; omega)
  have hc : (128 * cc.val + g.val) / 128 = cc.val := by have := g.isLt; omega
  show max (Cert.Spec.pairRow x w βr b r j (Cert.Spec.laneFeat ⟨128 * cc.val + g.val, hl⟩)
        * Cert.Spec.plane d0 d1 d2 ((128 * cc.val + g.val) / 128) (ix3 b r j)) _
      = max (Cert.Spec.pair x w β b r j g * d (ix4 b r j cc)) _
  rw [hg, hc, pairRow_eq x w β βr hβ, plane_at d d0 d1 d2 h0 h1 h2]

/-- The folded array viewed [16,128,128,3,128] is the specification. -/
theorem relaid_eq (h0 : ∀ (b : Fin 16) (r j : Fin 128), d0 (ix3 b r j) = d (ix4 b r j (⟨0, by decide⟩ : Fin 3)))
    (h1 : ∀ (b : Fin 16) (r j : Fin 128), d1 (ix3 b r j) = d (ix4 b r j (⟨1, by decide⟩ : Fin 3)))
    (h2 : ∀ (b : Fin 16) (r j : Fin 128), d2 (ix3 b r j) = d (ix4 b r j (⟨2, by decide⟩ : Fin 3)))
    (hβ : ∀ g : Fin 128, βr (ix2 (0 : Fin 1) g) = β (ix1 g))
    (h : (⟨4, ![16, 128, 128, 384]⟩ : Shape).ShapeCasts ⟨5, ![16, 128, 128, 3, 128]⟩) :
    shapeCast ⟨5, ![16, 128, 128, 3, 128]⟩ (Cert.Spec.folded x d0 d1 d2 w βr) h = Cert.Spec.G x d w β := by
  funext i
  obtain ⟨b, r, j, cc, g, rfl⟩ : ∃ (b : Fin 16) (r j : Fin 128) (cc : Fin 3) (g : Fin 128), i = ix5 b r j cc g :=
    ⟨i 0, i 1, i 2, i 3, i 4, eq_ix5 i⟩
  have hl : 128 * cc.val + g.val < 384 := by have := cc.isLt; have := g.isLt; omega
  refine (shapeCast_apply _ h (ix5 b r j cc g) (ix4 b r j (⟨128 * cc.val + g.val, hl⟩ : Fin 384)) ?_).trans ?_
  · rw [Shape.rowMajor_val_four, Shape.rowMajor_val_five]
    show ((b.val * 128 + r.val) * 128 + j.val) * 384 + (128 * cc.val + g.val)
      = (((b.val * 128 + r.val) * 128 + j.val) * 3 + cc.val) * 128 + g.val
    omega
  · rw [Cert.Spec.folded_ix4, Cert.Spec.G_ix5]
    exact foldedAt_lane x d w β d0 d1 d2 βr h0 h1 h2 hβ b r j cc g hl

end Pure

/-! ## What the host operations before the region leave -/

/-- The features and the weight are written by no host operation. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- The bias row is the bias viewed [1,128]. -/
theorem V_v0 (c : Dev nD) : (V m c main_v0 : S1x128.Idx → EReal)
    = shapeCast S1x128 (m ((c : Thread nD τ).loc main_arg3)) shapeCasts_S128_S1x128 := by
  show StableHlo.after hostOps0 (fun b => m (c, b)) (Proc.devRef .tc main_v0) = _
  after_results
  rfl

/-- The three planes are the three last-axis slices of the distances, their unit axis dropped. -/
theorem V_v2 (c : Dev nD) : (V m c main_v2 : S16x128x128.Idx → EReal)
    = shapeCast S16x128x128 (extractStridedSlice S16x128x128x1 ![0, 0, 0, 0] (m ((c : Thread nD τ).loc main_arg1))
        slices_S16x128x128x3_S16x128x128x1_0_0_0_0) shapeCasts_S16x128x128x1_S16x128x128 := by
  show StableHlo.after hostOps0 (fun b => m (c, b)) (Proc.devRef .tc main_v2) = _
  after_results
  rfl

theorem V_v4 (c : Dev nD) : (V m c main_v4 : S16x128x128.Idx → EReal)
    = shapeCast S16x128x128 (extractStridedSlice S16x128x128x1 ![0, 0, 0, 1] (m ((c : Thread nD τ).loc main_arg1))
        slices_S16x128x128x3_S16x128x128x1_0_0_0_1) shapeCasts_S16x128x128x1_S16x128x128 := by
  show StableHlo.after hostOps0 (fun b => m (c, b)) (Proc.devRef .tc main_v4) = _
  after_results
  rfl

theorem V_v6 (c : Dev nD) : (V m c main_v6 : S16x128x128.Idx → EReal)
    = shapeCast S16x128x128 (extractStridedSlice S16x128x128x1 ![0, 0, 0, 2] (m ((c : Thread nD τ).loc main_arg1))
        slices_S16x128x128x3_S16x128x128x1_0_0_0_2) shapeCasts_S16x128x128x1_S16x128x128 := by
  show StableHlo.after hostOps0 (fun b => m (c, b)) (Proc.devRef .tc main_v6) = _
  after_results
  rfl

/-! ## Those arrays read at coordinates -/

/-- A last-axis slice of width one at offset `o`, its unit axis dropped, reads (b, r, j) at (b, r, j, o). -/
theorem slice_plane_apply (d : FVec Ideal ⟨4, ![16, 128, 128, 3]⟩ .f32) (o : Fin 3)
    (hs : (⟨4, ![16, 128, 128, 3]⟩ : Shape).Slices ![0, 0, 0, o.val] ⟨4, ![16, 128, 128, 1]⟩)
    (hc : (⟨4, ![16, 128, 128, 1]⟩ : Shape).ShapeCasts ⟨3, ![16, 128, 128]⟩) (b : Fin 16) (r j : Fin 128) :
    shapeCast ⟨3, ![16, 128, 128]⟩ (extractStridedSlice ⟨4, ![16, 128, 128, 1]⟩ ![0, 0, 0, o.val] d hs) hc (ix3 b r j)
      = d (ix4 b r j o) := by
  refine (shapeCast_apply _ hc (ix3 b r j) (ix4 b r j (0 : Fin 1)) ?_).trans ?_
  · rw [Shape.rowMajor_val_four, Shape.rowMajor_val_three]
    show ((b.val * 128 + r.val) * 128 + j.val) * 1 + 0 = (b.val * 128 + r.val) * 128 + j.val
    omega
  · refine extractStridedSlice_apply _ d hs (ix4 b r j (0 : Fin 1)) (ix4 b r j o) fun a => ?_
    match a with
    | ⟨0, _⟩ => show b.val = 0 + b.val; omega
    | ⟨1, _⟩ => show r.val = 0 + r.val; omega
    | ⟨2, _⟩ => show j.val = 0 + j.val; omega
    | ⟨3, _⟩ => show o.val = o.val + 0; omega

/-! ## The result -/

theorem result_eq (c : Dev nD) :
    shapeCast S16x128x128x3x128 (Cert.Spec.folded (V m c main_arg0) (V m c main_v2) (V m c main_v4) (V m c main_v6) (V m c main_arg2) (V m c main_v0)) shapeCasts_S16x128x128x384_S16x128x128x3x128
      = Cert.Spec.G (m ((c : Thread nD τ).loc main_arg0)) (m ((c : Thread nD τ).loc main_arg1)) (m ((c : Thread nD τ).loc main_arg2)) (m ((c : Thread nD τ).loc main_arg3)) := by
  rw [V_arg0 m c, V_arg2 m c]
  refine relaid_eq _ (m ((c : Thread nD τ).loc main_arg1)) _ (m ((c : Thread nD τ).loc main_arg3)) _ _ _ _ ?_ ?_ ?_ ?_ _
  · intro b r j
    exact (congrFun (V_v2 m c) (ix3 b r j)).trans
      (slice_plane_apply (m ((c : Thread nD τ).loc main_arg1)) ⟨0, by decide⟩ slices_S16x128x128x3_S16x128x128x1_0_0_0_0 shapeCasts_S16x128x128x1_S16x128x128 b r j)
  · intro b r j
    exact (congrFun (V_v4 m c) (ix3 b r j)).trans
      (slice_plane_apply (m ((c : Thread nD τ).loc main_arg1)) ⟨1, by decide⟩ slices_S16x128x128x3_S16x128x128x1_0_0_0_1 shapeCasts_S16x128x128x1_S16x128x128 b r j)
  · intro b r j
    exact (congrFun (V_v6 m c) (ix3 b r j)).trans
      (slice_plane_apply (m ((c : Thread nD τ).loc main_arg1)) ⟨2, by decide⟩ slices_S16x128x128x3_S16x128x128x1_0_0_0_2 shapeCasts_S16x128x128x1_S16x128x128 b r j)
  · intro g
    exact (congrFun (V_v0 m c) (ix2 (0 : Fin 1) g)).trans
      (shapeCast_a_1a_apply (m ((c : Thread nD τ).loc main_arg3)) shapeCasts_S128_S1x128 (0 : Fin 1) g)

end Cert.KernelIdeal.Relaid

end
-- ==== Proof.RefIsSpec.lean ====
/-
  The reference program computes the specified value.

  The reference slices the weight into its upper half (rows 0..63) and its lower half (rows 64..127), contracts the
  node features with each half over the 64 features, spreads the first projection along the column node and the
  second along the row node, adds them, adds the bias spread along every axis but the last, spreads the sum along the
  distance coordinate, multiplies by the distance spread along the output feature, and takes the positive part.
  Read at the coordinates (b, r, j, c, g) every spreading step only forgets or repeats coordinates, so the value is

      max( ( Σ_k x[b,r,k]·w[k,g]  +  Σ_k x[b,j,k]·w[64+k,g]  +  β[g] ) · d[b,r,j,c] , 0 )

  with the sums grouped exactly as in the specification: (row part + column part) + bias.
-/
import proofs.«170049_j9388798509584_2_alg».proof.Proof.Gen.ReferenceIdeal.Read
import proofs.«170049_j9388798509584_2_alg».proof.Proof.Spec

noncomputable section

open scoped BigOperators

namespace Cert.RefValue

open Cert.ReferenceIdeal Cert.ReferenceIdeal.Read Idealize.ShloMosaic Idealize.ShloMosaic.TcCoe Idealize.SL.Sem
  Idealize.ShloMosaic.StableHlo Idealize.ShloMosaic.ValueIdx

/-! ## Where each step reads, in coordinates -/

/-- The contraction of the row node reads feature `k` of node `(b, r)`. -/
theorem lidx_row (b : Fin 16) (r g : Fin 128) (k : Fin 64) :
    lidx_main_v1 (ix3 b r g) k = ix3 b r k :=
  funext fun a => match a with | ⟨0, _⟩ => rfl | ⟨1, _⟩ => rfl | ⟨2, _⟩ => rfl

/-- The upper half of the weight at `(k, g)` is the weight at row `k`. -/
theorem ridx_lo (b : Fin 16) (r g : Fin 128) (k : Fin 64) :
    idx_main_v0 (ridx_main_v1 (ix3 b r g) k) = ix2 (Cert.Spec.lo k) g :=
  funext fun a => match a with | ⟨0, _⟩ => rfl | ⟨1, _⟩ => rfl

/-- The contraction of the column node reads feature `k` of node `(b, j)`. -/
theorem lidx_col (b : Fin 16) (j g : Fin 128) (k : Fin 64) :
    lidx_main_v3 (ix3 b j g) k = ix3 b j k :=
  funext fun a => match a with | ⟨0, _⟩ => rfl | ⟨1, _⟩ => rfl | ⟨2, _⟩ => rfl

/-- The lower half of the weight at `(k, g)` is the weight at row `64 + k`. -/
theorem ridx_hi (b : Fin 16) (j g : Fin 128) (k : Fin 64) :
    idx_main_v2 (ridx_main_v3 (ix3 b j g) k) = ix2 (Cert.Spec.hi k) g :=
  funext fun a => match a with | ⟨0, _⟩ => rfl | ⟨1, _⟩ => rfl

/-- Spreading the row projection along the column node forgets `j`. -/
theorem idx_row (b : Fin 16) (r j g : Fin 128) :
    idx_main_v4 (idx_main_v6 (ix4 b r j g)) = ix3 b r g :=
  funext fun a => match a with | ⟨0, _⟩ => rfl | ⟨1, _⟩ => rfl | ⟨2, _⟩ => rfl

/-- Spreading the column projection along the row node forgets `r`. -/
theorem idx_col (b : Fin 16) (r j g : Fin 128) :
    idx_main_v5 (idx_main_v7 (ix4 b r j g)) = ix3 b j g :=
  funext fun a => match a with | ⟨0, _⟩ => rfl | ⟨1, _⟩ => rfl | ⟨2, _⟩ => rfl

/-- Spreading the bias keeps only the output feature. -/
theorem idx_bias (b : Fin 16) (r j g : Fin 128) :
    idx_main_v9 (idx_main_v10 (ix4 b r j g)) = ix1 g :=
  funext fun a => match a with | ⟨0, _⟩ => rfl

/-- Spreading the pair term along the distance coordinate forgets `c`. -/
theorem idx_pair (b : Fin 16) (r j : Fin 128) (c : Fin 3) (g : Fin 128) :
    idx_main_v12 (idx_main_v14 (ix5 b r j c g)) = ix4 b r j g :=
  funext fun a => match a with | ⟨0, _⟩ => rfl | ⟨1, _⟩ => rfl | ⟨2, _⟩ => rfl | ⟨3, _⟩ => rfl

/-- Spreading the distances along the output feature forgets `g`. -/
theorem idx_dist (b : Fin 16) (r j : Fin 128) (c : Fin 3) (g : Fin 128) :
    idx_main_v13 (idx_main_v15 (ix5 b r j c g)) = ix4 b r j c :=
  funext fun a => match a with | ⟨0, _⟩ => rfl | ⟨1, _⟩ => rfl | ⟨2, _⟩ => rfl | ⟨3, _⟩ => rfl

/-! ## The two projections, the pair term, the result -/

/-- The row node's projection: the features of node `(b, r)` against rows 0..63 of the weight. -/
theorem row_proj (x0 : (⟨S16x128x64, .f32⟩ : BufTy).Contents (Elt Ideal)) (x2 : (⟨S128x128, .f32⟩ : BufTy).Contents (Elt Ideal))
    (b : Fin 16) (r g : Fin 128) :
    val_main_v1 (F := Ideal) x0 x2 (ix3 b r g) = ∑ k : Fin 64, x0 (ix3 b r k) * x2 (ix2 (Cert.Spec.lo k) g) := by
  rw [val_main_v1_apply]
  refine Finset.sum_congr rfl fun k _ => ?_
  rw [val_main_v0_apply, lidx_row, ridx_lo]

/-- The column node's projection: the features of node `(b, j)` against rows 64..127 of the weight. -/
theorem col_proj (x0 : (⟨S16x128x64, .f32⟩ : BufTy).Contents (Elt Ideal)) (x2 : (⟨S128x128, .f32⟩ : BufTy).Contents (Elt Ideal))
    (b : Fin 16) (j g : Fin 128) :
    val_main_v3 (F := Ideal) x0 x2 (ix3 b j g) = ∑ k : Fin 64, x0 (ix3 b j k) * x2 (ix2 (Cert.Spec.hi k) g) := by
  rw [val_main_v3_apply]
  refine Finset.sum_congr rfl fun k _ => ?_
  rw [val_main_v2_apply, lidx_col, ridx_hi]

/-- The pair term before the distance: (row projection + column projection) + bias. -/
theorem pair_eq (x0 : (⟨S16x128x64, .f32⟩ : BufTy).Contents (Elt Ideal)) (x2 : (⟨S128x128, .f32⟩ : BufTy).Contents (Elt Ideal))
    (x3 : (⟨S128, .f32⟩ : BufTy).Contents (Elt Ideal)) (b : Fin 16) (r j g : Fin 128) :
    val_main_v11 (F := Ideal) x0 x2 x3 (ix4 b r j g) = Cert.Spec.pair x0 x2 x3 b r j g := by
  rw [val_main_v11_apply, val_main_v8_apply, val_main_v6_apply, val_main_v4_apply, val_main_v7_apply, val_main_v5_apply,
    val_main_v10_apply, val_main_v9_apply, idx_row, idx_col, idx_bias, row_proj, col_proj]
  rfl

/-- The reference's result is the specified array. -/
theorem ref_eq (x0 : (⟨Cert.ReferenceIdeal.S16x128x64, .f32⟩ : BufTy).Contents (Elt Ideal))
    (x1 : (⟨Cert.ReferenceIdeal.S16x128x128x3, .f32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Cert.ReferenceIdeal.Read.val_main_v17 (F := Ideal) x0 x1 x2 x3 = Cert.Spec.G x0 x1 x2 x3 := by
  funext i
  obtain ⟨b, r, j, c, g, rfl⟩ : ∃ (b : Fin 16) (r j : Fin 128) (c : Fin 3) (g : Fin 128), i = ix5 b r j c g :=
    ⟨i 0, i 1, i 2, i 3, i 4, eq_ix5 i⟩
  rw [Cert.Spec.G_ix5, val_main_v17_apply, val_main_v16_apply, val_main_v14_apply, val_main_v12_apply, val_main_v15_apply,
    val_main_v13_apply, val_main_call0_v0_apply, val_main_call0_cst_apply, idx_pair, idx_dist, pair_eq]
  rfl

end Cert.RefValue

end
-- ==== Proof.lean ====
/-
  The kernel computes, for each batch element b, row node r, column node j, distance coordinate c and output feature g,

      max( ( Σ_k x[b,r,k]·w[k,g]  +  Σ_k x[b,j,k]·w[64+k,g]  +  β[g] ) · d[b,r,j,c] , 0 ),

  tile by tile over a 16 × 4 grid (32 row nodes per tile), into an array whose last two axes are folded into 384 lanes,
  and re-lays it afterwards; the reference computes the same expression with whole-array operations. On the extended
  reals the two are the same function of the four arguments, index by index, with no use of finiteness: the two sides
  group their sums identically, so only the layouts differ.

  The three frames: each program terminates, faults nowhere and leaves its arguments unchanged (the kernel's by the
  pipelined region's run, the reference's by its straight-line run). The idealization rewrote nothing.
-/
import proofs.«170049_j9388798509584_2_alg».proof.Defs
import proofs.«170049_j9388798509584_2_alg».proof.Proof.Gen.Kernel
import proofs.«170049_j9388798509584_2_alg».proof.Proof.Gen.KernelIdeal
import proofs.«170049_j9388798509584_2_alg».proof.Proof.Gen.ReferenceIdeal
import proofs.«170049_j9388798509584_2_alg».proof.Proof.Gen.ReferenceIdeal.Run
import proofs.«170049_j9388798509584_2_alg».proof.Proof.Gen.ReferenceIdeal.Read
import proofs.«170049_j9388798509584_2_alg».proof.Proof.Gen.Pre_finite_inputs
import proofs.«170049_j9388798509584_2_alg».proof.Proof.RunB
import proofs.«170049_j9388798509584_2_alg».proof.Proof.RunI
import proofs.«170049_j9388798509584_2_alg».proof.Proof.FinalI
import proofs.«170049_j9388798509584_2_alg».proof.Proof.RelaidI
import proofs.«170049_j9388798509584_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specified array of their (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run_main (F := Ideal) m ρ)
    rw [Cert.KernelIdeal.Hand.Vend_v8, Cert.KernelIdeal.Final.final]
    exact Cert.KernelIdeal.Relaid.result_eq m c
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.RefValue.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
